-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1024 : Shape := ⟨3, ![2, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x8192x1024 .f32) (main_arg1 : FVec F S1024x3072 .f32) (main_arg2 : FVec F S3072 .f32) (main_arg3 : FVec F S1024x1024 .f32) (main_arg4 : FVec F S1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x8192x1024 : Shape := ⟨3, ![2, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x16x3x64 : Shape := ⟨4, ![1024, 16, 3, 64]⟩
abbrev S1024x16x1x64 : Shape := ⟨4, ![1024, 16, 1, 64]⟩
abbrev S1024x16x64 : Shape := ⟨3, ![1024, 16, 64]⟩
abbrev S16x3x64 : Shape := ⟨3, ![16, 3, 64]⟩
abbrev S16x1x64 : Shape := ⟨3, ![16, 1, 64]⟩
abbrev S16x64 : Shape := ⟨2, ![16, 64]⟩
abbrev S1x3072 : Shape := ⟨2, ![1, 3072]⟩
abbrev S1x1024 : Shape := ⟨2, ![1, 1024]⟩
abbrev S16384x1024 : Shape := ⟨2, ![16384, 1024]⟩
abbrev S256x1024 : Shape := ⟨2, ![256, 1024]⟩
abbrev S256x3072 : Shape := ⟨2, ![256, 3072]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩

abbrev nBuf : Space → Nat
  | .hbm => 34
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x16x3x64, .f32⟩
  | .hbm, ⟨6, _⟩ => ⟨S1024x16x1x64, .f32⟩
  | .hbm, ⟨7, _⟩ => ⟨S1024x16x64, .f32⟩
  | .hbm, ⟨8, _⟩ => ⟨S1024x1024, .f32⟩
  | .hbm, ⟨9, _⟩ => ⟨S1024x16x1x64, .f32⟩
  | .hbm, ⟨10, _⟩ => ⟨S1024x16x64, .f32⟩
  | .hbm, ⟨11, _⟩ => ⟨S1024x1024, .f32⟩
  | .hbm, ⟨12, _⟩ => ⟨S1024x16x1x64, .f32⟩
  | .hbm, ⟨13, _⟩ => ⟨S1024x16x64, .f32⟩
  | .hbm, ⟨14, _⟩ => ⟨S1024x1024, .f32⟩
  | .hbm, ⟨15, _⟩ => ⟨S1024x3072, .f32⟩
  | .hbm, ⟨16, _⟩ => ⟨S1024x3072, .bf16⟩
  | .hbm, ⟨17, _⟩ => ⟨S16x3x64, .f32⟩
  | .hbm, ⟨18, _⟩ => ⟨S16x1x64, .f32⟩
  | .hbm, ⟨19, _⟩ => ⟨S16x64, .f32⟩
  | .hbm, ⟨20, _⟩ => ⟨S1024, .f32⟩
  | .hbm, ⟨21, _⟩ => ⟨S16x1x64, .f32⟩
  | .hbm, ⟨22, _⟩ => ⟨S16x64, .f32⟩
  | .hbm, ⟨23, _⟩ => ⟨S1024, .f32⟩
  | .hbm, ⟨24, _⟩ => ⟨S16x1x64, .f32⟩
  | .hbm, ⟨25, _⟩ => ⟨S16x64, .f32⟩
  | .hbm, ⟨26, _⟩ => ⟨S1024, .f32⟩
  | .hbm, ⟨27, _⟩ => ⟨S3072, .f32⟩
  | .hbm, ⟨28, _⟩ => ⟨S1x3072, .f32⟩
  | .hbm, ⟨29, _⟩ => ⟨S1024x1024, .bf16⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024x3072_S1024x16x3x64 : S1024x3072.ShapeCasts S1024x16x3x64
  slices_S1024x16x3x64_S1024x16x1x64_0_0_0_0 : S1024x16x3x64.Slices ![0, 0, 0, 0] S1024x16x1x64
  shapeCasts_S1024x16x1x64_S1024x16x64 : S1024x16x1x64.ShapeCasts S1024x16x64
  shapeCasts_S1024x16x64_S1024x1024 : S1024x16x64.ShapeCasts S1024x1024
  slices_S1024x16x3x64_S1024x16x1x64_0_0_1_0 : S1024x16x3x64.Slices ![0, 0, 1, 0] S1024x16x1x64
  slices_S1024x16x3x64_S1024x16x1x64_0_0_2_0 : S1024x16x3x64.Slices ![0, 0, 2, 0] S1024x16x1x64
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S3072_S16x3x64 : S3072.ShapeCasts S16x3x64
  slices_S16x3x64_S16x1x64_0_0_0 : S16x3x64.Slices ![0, 0, 0] S16x1x64
  shapeCasts_S16x1x64_S16x64 : S16x1x64.ShapeCasts S16x64
  shapeCasts_S16x64_S1024 : S16x64.ShapeCasts S1024
  slices_S16x3x64_S16x1x64_0_1_0 : S16x3x64.Slices ![0, 1, 0] S16x1x64
  slices_S16x3x64_S16x1x64_0_2_0 : S16x3x64.Slices ![0, 2, 0] S16x1x64
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  shapeCasts_S2x8192x1024_S16384x1024 : S2x8192x1024.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  shapeCasts_S256x1024_S256x16x64 : S256x1024.ShapeCasts S256x16x64
  slices_S256x3072_o0_1024_S256x1024 : S256x3072.Slices ![0, 1024] S256x1024
  slices_S256x3072_o0_2048_S256x1024 : S256x3072.Slices ![0, 2048] S256x1024
  reduces_S256x16x16_S256x16 : S256x16x16.Reduces [2] S256x16
  shapeCasts_S256x16_S256x16x1 : S256x16.ShapeCasts S256x16x1
  broadcasts_S256x16x1_S256x16x16 : S256x16x1.Broadcasts S256x16x16
  shapeCasts_S256x16x64_S256x1024 : S256x16x64.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S2x8192x1024 : S16384x1024.ShapeCasts S2x8192x1024
  dot_S256x1024_S1024x3072_S256x3072_1_0_0_1_n_n_wf : DotDims.WF S256x1024 S1024x3072 S256x3072 [1] [0] [0] [1] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v26) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x8192x1024 : Shape := ⟨3, ![2, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x8192x3072 : Shape := ⟨3, ![2, 8192, 3072]⟩
abbrev S1x1x3072 : Shape := ⟨3, ![1, 1, 3072]⟩
abbrev S2x8192x16x192 : Shape := ⟨4, ![2, 8192, 16, 192]⟩
abbrev S2x8192x16x64 : Shape := ⟨4, ![2, 8192, 16, 64]⟩
abbrev S2x8192x16x16 : Shape := ⟨4, ![2, 8192, 16, 16]⟩
abbrev S_ : Shape := ⟨0, ![]⟩
abbrev S2x8192x16 : Shape := ⟨3, ![2, 8192, 16]⟩
abbrev S2x8192x16x1 : Shape := ⟨4, ![2, 8192, 16, 1]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x8192x3072, .f32⟩
  | .hbm, ⟨6, _⟩ => ⟨S1x1x3072, .f32⟩
  | .hbm, ⟨7, _⟩ => ⟨S2x8192x3072, .f32⟩
  | .hbm, ⟨8, _⟩ => ⟨S2x8192x3072, .f32⟩
  | .hbm, ⟨9, _⟩ => ⟨S2x8192x16x192, .f32⟩
  | .hbm, ⟨10, _⟩ => ⟨S2x8192x16x64, .f32⟩
  | .hbm, ⟨11, _⟩ => ⟨S2x8192x16x64, .f32⟩
  | .hbm, ⟨12, _⟩ => ⟨S2x8192x16x64, .f32⟩
  | .hbm, ⟨13, _⟩ => ⟨S2x8192x16x16, .f32⟩
  | .hbm, ⟨14, _⟩ => ⟨S_, .f32⟩
  | .hbm, ⟨15, _⟩ => ⟨S2x8192x16x16, .f32⟩
  | .hbm, ⟨16, _⟩ => ⟨S2x8192x16x16, .f32⟩
  | .hbm, ⟨17, _⟩ => ⟨S_, .f32⟩
  | .hbm, ⟨18, _⟩ => ⟨S2x8192x16, .f32⟩
  | .hbm, ⟨19, _⟩ => ⟨S_, .f32⟩
  | .hbm, ⟨20, _⟩ => ⟨S2x8192x16, .f32⟩
  | .hbm, ⟨21, _⟩ => ⟨S2x8192x16, .f32⟩
  | .hbm, ⟨22, _⟩ => ⟨S2x8192x16x1, .f32⟩
  | .hbm, ⟨23, _⟩ => ⟨S2x8192x16x16, .f32⟩
  | .hbm, ⟨24, _⟩ => ⟨S2x8192x16x16, .f32⟩
  | .hbm, ⟨25, _⟩ => ⟨S2x8192x16x16, .f32⟩
  | .hbm, ⟨26, _⟩ => ⟨S_, .f32⟩
  | .hbm, ⟨27, _⟩ => ⟨S2x8192x16, .f32⟩
  | .hbm, ⟨28, _⟩ => ⟨S2x8192x16x1, .f32⟩
  | .hbm, ⟨29, _⟩ => ⟨S2x8192x16x16, .f32⟩
  | .hbm, ⟨30, _⟩ => ⟨S2x8192x16x16, .f32⟩
  | .hbm, ⟨31, _⟩ => ⟨S2x8192x16x64, .f32⟩
  | .hbm, ⟨32, _⟩ => ⟨S2x8192x1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x8192x3072_0_1_2 : S1x1x3072.BroadcastsInDim S2x8192x3072 (![0, 1, 2] : Fin 3 → Fin S2x8192x3072.rank)
  shapeCasts_S2x8192x3072_S2x8192x16x192 : S2x8192x3072.ShapeCasts S2x8192x16x192
  slices_S2x8192x16x192_S2x8192x16x64_0_0_0_0 : S2x8192x16x192.Slices ![0, 0, 0, 0] S2x8192x16x64
  slices_S2x8192x16x192_S2x8192x16x64_0_0_0_64 : S2x8192x16x192.Slices ![0, 0, 0, 64] S2x8192x16x64
  slices_S2x8192x16x192_S2x8192x16x64_0_0_0_128 : S2x8192x16x192.Slices ![0, 0, 0, 128] S2x8192x16x64
  bcast_S_S2x8192x16x16 : S_.BroadcastsInDim S2x8192x16x16 (![] : Fin 0 → Fin S2x8192x16x16.rank)
  reducesTo_S2x8192x16x16_S2x8192x16_d3 : S2x8192x16x16.ReducesTo [3] S2x8192x16
  h_S_ : 0 < S_.numel
  bcast_S_S2x8192x16 : S_.BroadcastsInDim S2x8192x16 (![] : Fin 0 → Fin S2x8192x16.rank)
  bcast_S2x8192x16_S2x8192x16x1_0_1_2 : S2x8192x16.BroadcastsInDim S2x8192x16x1 (![0, 1, 2] : Fin 3 → Fin S2x8192x16x1.rank)
  bcast_S2x8192x16x1_S2x8192x16x16_0_1_2_3 : S2x8192x16x1.BroadcastsInDim S2x8192x16x16 (![0, 1, 2, 3] : Fin 4 → Fin S2x8192x16x16.rank)
  shapeCasts_S2x8192x16x64_S2x8192x1024 : S2x8192x16x64.ShapeCasts S2x8192x1024
  bcast_S1024_S1x1x1024_2 : S1024.BroadcastsInDim S1x1x1024 (![2] : Fin 1 → Fin S1x1x1024.rank)
  bcast_S1x1x1024_S2x8192x1024_0_1_2 : S1x1x1024.BroadcastsInDim S2x8192x1024 (![0, 1, 2] : Fin 3 → Fin S2x8192x1024.rank)
  dot_S2x8192x1024_S1024x3072_S2x8192x3072_2_0_01_1_n_n_wf : DotDims.WF S2x8192x1024 S1024x3072 S2x8192x3072 [2] [0] [0, 1] [1] [] []
  dot_S2x8192x16x64_S2x8192x16x64_S2x8192x16x16_3_3_2_2_01_01_wf : DotDims.WF S2x8192x16x64 S2x8192x16x64 S2x8192x16x16 [3] [3] [2] [2] [0, 1] [0, 1]
  dot_S2x8192x16x16_S2x8192x16x64_S2x8192x16x64_3_2_2_3_01_01_wf : DotDims.WF S2x8192x16x16 S2x8192x16x64 S2x8192x16x64 [3] [2] [2] [3] [0, 1] [0, 1]
  dot_S2x8192x1024_S1024x1024_S2x8192x1024_2_0_01_1_n_n_wf : DotDims.WF S2x8192x1024 S1024x1024 S2x8192x1024 [2] [0] [0, 1] [1] [] []

variable [Facts₀]

def dot_S2x8192x1024_S1024x3072_S2x8192x3072_2_0_01_1_n_n : DotDims S2x8192x1024 S1024x3072 S2x8192x3072 where
  lhsContracting := [2]
  rhsContracting := [0]
  lhsNonContracting := [0, 1]
  rhsNonContracting := [1]
  lhsBatch := []
  rhsBatch := []
  wf := dot_S2x8192x1024_S1024x3072_S2x8192x3072_2_0_01_1_n_n_wf
def dot_S2x8192x16x64_S2x8192x16x64_S2x8192x16x16_3_3_2_2_01_01 : DotDims S2x8192x16x64 S2x8192x16x64 S2x8192x16x16 where
  lhsContracting := [3]
  rhsContracting := [3]
  lhsNonContracting := [2]
  rhsNonContracting := [2]
  lhsBatch := [0, 1]
  rhsBatch := [0, 1]
  wf := dot_S2x8192x16x64_S2x8192x16x64_S2x8192x16x16_3_3_2_2_01_01_wf
def dot_S2x8192x16x16_S2x8192x16x64_S2x8192x16x64_3_2_2_3_01_01 : DotDims S2x8192x16x16 S2x8192x16x64 S2x8192x16x64 where
  lhsContracting := [3]
  rhsContracting := [2]
  lhsNonContracting := [2]
  rhsNonContracting := [3]
  lhsBatch := [0, 1]
  rhsBatch := [0, 1]
  wf := dot_S2x8192x16x16_S2x8192x16x64_S2x8192x16x64_3_2_2_3_01_01_wf
def dot_S2x8192x1024_S1024x1024_S2x8192x1024_2_0_01_1_n_n : DotDims S2x8192x1024 S1024x1024 S2x8192x1024 where
  lhsContracting := [2]
  rhsContracting := [0]
  lhsNonContracting := [0, 1]
  rhsNonContracting := [1]
  lhsBatch := []
  rhsBatch := []
  wf := dot_S2x8192x1024_S1024x1024_S2x8192x1024_2_0_01_1_n_n_wf

class Facts : Prop extends Facts₀ where

variable [Facts]
-- ==== Proof.EntryArraysBits.lean ====
/-
  What the pallas_call finds in memory.  The program first re-lays the weights on the host (the fused projection's
  columns permuted from head-major to part-major, the biases likewise, the token array flattened to rows) and only
  then enters its one region; `V0 m c` is core `c`'s buffer contents at that moment, the fold of those host
  operations over the launch memory `m`, and `V m c b` the same read at a TensorCore reference `b`.
-/
import proofs.«175739_j64132451663943_2_alg».proof.Proof.Gen.Kernel.Launch
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.FrameBits.lean ====
/-
  The run of `Kernel`'s program, at any float instance.

  The program re-lays its weights on the host, enters ONE region — a grid of 64 points, point `t` working on the
  256 tokens of rows `256·t … 256·t + 255` — and reshapes the region's result.  At a point the body loads the token
  block and the four weight arrays whole, computes, and stores one whole [256, 1024] block: so what the output's
  staging buffer holds after the body is the body's one value, `outBlock`, a function of the five input blocks, and
  every input's buffer is left as found.  From that and the pipeline library's launch theorem: every weakly fair
  execution terminates without a fault, the five argument arrays end as launched, and the region's result array is
  what the library assembles from the blocks written back (`run_main`, `frame`).
-/
import proofs.«175739_j64132451663943_2_alg».proof.Proof.EntryArraysBits
import proofs.«175739_j64132451663943_2_alg».proof.Proof.Gen.Kernel.Skeleton
import proofs.«175739_j64132451663943_2_alg».proof.Proof.Gen.Kernel.Points
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, then the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved), once the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved), once the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved), once the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved), once the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved), once the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rTok : Rect S256x1024 := Rect.unit (s := S256x1024) ![0, 0] S256x1024.size inb_S256x1024_S256x1024_0_0
abbrev rWqkv : Rect S1024x3072 := Rect.unit (s := S1024x3072) ![0, 0] S1024x3072.size inb_S1024x3072_S1024x3072_0_0
abbrev rBqkv : Rect S1x3072 := Rect.unit (s := S1x3072) ![0, 0] S1x3072.size inb_S1x3072_S1x3072_0_0
abbrev rWout : Rect S1024x1024 := Rect.unit (s := S1024x1024) ![0, 0] S1024x1024.size inb_S1024x1024_S1024x1024_0_0
abbrev rBout : Rect S1x1024 := Rect.unit (s := S1x1024) ![0, 0] S1x1024.size inb_S1x1024_S1x1024_0_0

/-- The output window's staging buffer after the body: its one store, of the body's value at the five loaded blocks. -/
def outBlock (x0 : Vec F S256x1024 .f32) (x1 : Vec F S1024x3072 .bf16) (x2 : Vec F S1x3072 .f32) (x3 : Vec F S1024x1024 .bf16) (x4 : Vec F S1x1024 .f32) : Vec F S256x1024 .f32 :=
  View.canon [⟨rTok, k0_pay1 (View.ld x0 rTok) (View.ld x1 rWqkv) (View.ld x2 rBqkv) (View.ld x3 rWout) (View.ld x4 rBout)⟩]

/-- The one store covers the buffer. -/
theorem coverOut (p0 : Vec F S256x1024 .f32) (y : S256x1024.Idx) :
    ∃ pc ∈ ([⟨rTok, p0⟩] : List (View.Piece (Elt F) S256x1024 .f32)), y ∈ pc.1.set :=
  View.cover_of_tiled [⟨rTok, p0⟩] S256x1024.size (by rfl) y

/-! ## The body's triple -/

set_option maxHeartbeats 1000000 in
/-- The body on whole staging memrefs, the inputs' at contents `x0 … x4` and the output's at anything, runs to the
    continuation holding the inputs' as they were and the output's at `outBlock` of the inputs'. -/
theorem sound_kernel (c : Dev nD) (E : Set ℕ) (i : grid0.Coords)
    (arg1 : Memref sig .tc .vmem S256x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S256x1024 .f32) (harg6 : arg6.IsWhole)
    (x0 : Vec F S256x1024 .f32) (x1 : Vec F S1024x3072 .bf16) (x2 : Vec F S1x3072 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_mhsa_kernel i arg1 harg1 arg2 harg2 arg3 harg3 arg4 harg4 arg5 harg5 arg6 harg6) K := by
  simp only [cc0__fused_mhsa_kernel_eq_skeleton]; unfold cc0__fused_mhsa_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (coverOut _)

/-! ## The pipeline's proof data -/

/-- The proof data of the pipeline on core `c`: the arrays as the region finds them; after the body at point `t` each
    input's buffer at its block and the output's at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, and every final state has every array of the
    pipeline at what the library assembles from the proof data, and every other unscoped buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Cert.Kernel.Hand

end
-- ==== Proof.EntryArrays.lean ====
/-
  What the pallas_call finds in memory.  The program first re-lays the weights on the host (the fused projection's
  columns permuted from head-major to part-major, the biases likewise, the token array flattened to rows) and only
  then enters its one region; `V0 m c` is core `c`'s buffer contents at that moment, the fold of those host
  operations over the launch memory `m`, and `V m c b` the same read at a TensorCore reference `b`.
-/
import proofs.«175739_j64132451663943_2_alg».proof.Proof.Gen.KernelIdeal.Launch
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.FrameIdeal.lean ====
/-
  The run of `KernelIdeal`'s program, at any float instance.

  The program re-lays its weights on the host, enters ONE region — a grid of 64 points, point `t` working on the
  256 tokens of rows `256·t … 256·t + 255` — and reshapes the region's result.  At a point the body loads the token
  block and the four weight arrays whole, computes, and stores one whole [256, 1024] block: so what the output's
  staging buffer holds after the body is the body's one value, `outBlock`, a function of the five input blocks, and
  every input's buffer is left as found.  From that and the pipeline library's launch theorem: every weakly fair
  execution terminates without a fault, the five argument arrays end as launched, and the region's result array is
  what the library assembles from the blocks written back (`run_main`, `frame`).
-/
import proofs.«175739_j64132451663943_2_alg».proof.Proof.EntryArrays
import proofs.«175739_j64132451663943_2_alg».proof.Proof.Gen.KernelIdeal.Skeleton
import proofs.«175739_j64132451663943_2_alg».proof.Proof.Gen.KernelIdeal.Points
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, then the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes only its own result, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not (unfetched, the block index has not moved), once the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved), once the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved), once the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved), once the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved), once the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rTok : Rect S256x1024 := Rect.unit (s := S256x1024) ![0, 0] S256x1024.size inb_S256x1024_S256x1024_0_0
abbrev rWqkv : Rect S1024x3072 := Rect.unit (s := S1024x3072) ![0, 0] S1024x3072.size inb_S1024x3072_S1024x3072_0_0
abbrev rBqkv : Rect S1x3072 := Rect.unit (s := S1x3072) ![0, 0] S1x3072.size inb_S1x3072_S1x3072_0_0
abbrev rWout : Rect S1024x1024 := Rect.unit (s := S1024x1024) ![0, 0] S1024x1024.size inb_S1024x1024_S1024x1024_0_0
abbrev rBout : Rect S1x1024 := Rect.unit (s := S1x1024) ![0, 0] S1x1024.size inb_S1x1024_S1x1024_0_0

/-- The output window's staging buffer after the body: its one store, of the body's value at the five loaded blocks. -/
def outBlock (x0 : Vec F S256x1024 .f32) (x1 : Vec F S1024x3072 .bf16) (x2 : Vec F S1x3072 .f32) (x3 : Vec F S1024x1024 .bf16) (x4 : Vec F S1x1024 .f32) : Vec F S256x1024 .f32 :=
  View.canon [⟨rTok, k0_pay1 (View.ld x0 rTok) (View.ld x1 rWqkv) (View.ld x2 rBqkv) (View.ld x3 rWout) (View.ld x4 rBout)⟩]

/-- The one store covers the buffer. -/
theorem coverOut (p0 : Vec F S256x1024 .f32) (y : S256x1024.Idx) :
    ∃ pc ∈ ([⟨rTok, p0⟩] : List (View.Piece (Elt F) S256x1024 .f32)), y ∈ pc.1.set :=
  View.cover_of_tiled [⟨rTok, p0⟩] S256x1024.size (by rfl) y

/-! ## The body's triple -/

set_option maxHeartbeats 1000000 in
/-- The body on whole staging memrefs, the inputs' at contents `x0 … x4` and the output's at anything, runs to the
    continuation holding the inputs' as they were and the output's at `outBlock` of the inputs'. -/
theorem sound_kernel (c : Dev nD) (E : Set ℕ) (i : grid0.Coords)
    (arg1 : Memref sig .tc .vmem S256x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S256x1024 .f32) (harg6 : arg6.IsWhole)
    (x0 : Vec F S256x1024 .f32) (x1 : Vec F S1024x3072 .bf16) (x2 : Vec F S1x3072 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_mhsa_kernel i arg1 harg1 arg2 harg2 arg3 harg3 arg4 harg4 arg5 harg5 arg6 harg6) K := by
  simp only [cc0__fused_mhsa_kernel_eq_skeleton]; unfold cc0__fused_mhsa_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (coverOut _)

/-! ## The pipeline's proof data -/

/-- The proof data of the pipeline on core `c`: the arrays as the region finds them; after the body at point `t` each
    input's buffer at its block and the output's at `outBlock` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, and every final state has every array of the
    pipeline at what the library assembles from the proof data, and every other unscoped buffer as the reshape after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Cert.KernelIdeal.Hand

end
-- ==== Proof.Spec.lean ====
/-
  The function both programs compute, for ONE token.

  A token is a row `x : Fin 1024 → EReal`.  The fused projection has 16 heads, each with a query, a key and a
  value part (parts 0, 1, 2) of 64 lanes; `wq h j e d` is the weight from input feature `d` to lane `e` of part `j`
  of head `h`, and `bq h j e` its bias.  How these are laid out in an array (head-major `h·192 + j·64 + e`, or
  part-major `j·1024 + h·64 + e`) is the caller's business: the row function below only sees the accessors.

    proj h j e   = Σ_d x d · wq h j e d + bq h j e
    score h g    = (Σ_e proj h 0 e · proj g 1 e) · 1/8             (attention ACROSS HEADS, inside one token)
    rowMax h     = max over g of score h g, starting from −∞
    expd h g     = exp (score h g − rowMax h)
    denom h      = Σ_g expd h g
    attn h g     = expd h g / denom h
    ctx h e      = Σ_g attn h g · proj g 2 e
    rowOut e'    = Σ_c ctx (c / 64) (c % 64) · wo c e' + bo e'

  The scale 1/8 and −∞ are kept as the f32 words the programs spell (0x3E000000, 0xFF800000); the only word ever
  evaluated is the pair 1/8 and 8, to show that dividing by 8 IS multiplying by 1/8 on every extended real.
-/
import Idealize.ShloMosaic.PureOps.Ideal
import Idealize.ShloMosaic.Lib.ValueIdx

noncomputable section

namespace Cert.Mhsa

open Idealize.ShloMosaic

/-- Column of (head `h`, part `j`, lane `e`) in the head-major layout of the fused projection: `h·192 + j·64 + e`. -/
def headMajor (h : Fin 16) (j : Fin 3) (e : Fin 64) : Fin 3072 := ⟨h.val * 192 + j.val * 64 + e.val, by omega⟩
/-- The same lane in the part-major layout (all queries, then all keys, then all values): `j·1024 + h·64 + e`. -/
def partMajor (h : Fin 16) (j : Fin 3) (e : Fin 64) : Fin 3072 := ⟨j.val * 1024 + h.val * 64 + e.val, by omega⟩
/-- Column of (head `h`, lane `e`) among the 1024 context features: `h·64 + e`. -/
def featOf (h : Fin 16) (e : Fin 64) : Fin 1024 := ⟨h.val * 64 + e.val, by omega⟩
/-- The head of context feature `c`. -/
def headOf (c : Fin 1024) : Fin 16 := ⟨c.val / 64, by omega⟩
/-- The lane of context feature `c`. -/
def laneOf (c : Fin 1024) : Fin 64 := ⟨c.val % 64, Nat.mod_lt _ (by decide)⟩

/-- The scale the scores are multiplied by, as the f32 word for 0.125. -/
abbrev scaleW : EReal := Ideal.ofBits .f32 0x3E000000#32
/-- The value a row maximum starts from, as the f32 word for −∞. -/
abbrev negInfW : EReal := Ideal.ofBits .f32 0xFF800000#32

section Row

variable (wq : Fin 16 → Fin 3 → Fin 64 → Fin 1024 → EReal) (bq : Fin 16 → Fin 3 → Fin 64 → EReal)
  (wo : Fin 1024 → Fin 1024 → EReal) (bo : Fin 1024 → EReal) (x : Fin 1024 → EReal)

/-- Lane `e` of part `j` of head `h` of the projected token. -/
def proj (h : Fin 16) (j : Fin 3) (e : Fin 64) : EReal := (∑ d : Fin 1024, x d * wq h j e d) + bq h j e
/-- The scaled score of head `h`'s query against head `g`'s key. -/
def score (h g : Fin 16) : EReal := (∑ e : Fin 64, proj wq bq x h 0 e * proj wq bq x g 1 e) * scaleW
/-- The largest score of head `h`, the maximum started at −∞. -/
def rowMax (h : Fin 16) : EReal := (Finset.univ : Finset (Fin 16)).fold max negInfW (fun g => score wq bq x h g)
/-- The shifted exponentials. -/
def expd (h g : Fin 16) : EReal := Ideal.exp (score wq bq x h g - rowMax wq bq x h)
/-- Their sum over the key heads. -/
def denom (h : Fin 16) : EReal := ∑ g : Fin 16, expd wq bq x h g
/-- The softmax weights. -/
def attn (h g : Fin 16) : EReal := Ideal.div (expd wq bq x h g) (denom wq bq x h)
/-- The context: the weighted sum of the value parts. -/
def ctx (h : Fin 16) (e : Fin 64) : EReal := ∑ g : Fin 16, attn wq bq x h g * proj wq bq x g 2 e
/-- The output projection of the token's 1024 context features. -/
def rowOut (e' : Fin 1024) : EReal :=
  (∑ c : Fin 1024, ctx wq bq x (headOf c) (laneOf c) * wo c e') + bo e'

end Row

/-- The word 0x3E000000 is one eighth. -/
theorem scaleW_eq : scaleW = ((1 / 8 : ℝ) : EReal) := by
  simp [scaleW, Ideal.ofBits, Ideal.ieee, -EReal.coe_mul]; norm_num

/-- The word 0x41000000 is eight. -/
theorem eightW_eq : Ideal.ofBits .f32 0x41000000#32 = ((8 : ℝ) : EReal) := by
  simp [Ideal.ofBits, Ideal.ieee, -EReal.coe_mul]; norm_num

/-- Dividing by eight is multiplying by one eighth, at the infinities too. -/
theorem div_eight (y : EReal) : Ideal.div y (Ideal.ofBits .f32 0x41000000#32) = y * scaleW := by
  rw [eightW_eq, scaleW_eq]; exact Ideal.div_coe (by norm_num) y

/-- A maximum started at `b` is at least `b`, so taking the maximum with `b` once more changes nothing. -/
theorem max_fold_self {n : Nat} (b : EReal) (f : Fin n → EReal) :
    max b ((Finset.univ : Finset (Fin n)).fold max b f) = (Finset.univ : Finset (Fin n)).fold max b f :=
  max_eq_right (Finset.le_fold_max b |>.mpr (Or.inl le_rfl))

theorem headOf_featOf (h : Fin 16) (e : Fin 64) : headOf (featOf h e) = h := by
  apply Fin.ext; simp only [headOf, featOf]; omega
theorem laneOf_featOf (h : Fin 16) (e : Fin 64) : laneOf (featOf h e) = e := by
  apply Fin.ext; simp only [laneOf, featOf]; omega
theorem featOf_headOf_laneOf (c : Fin 1024) : featOf (headOf c) (laneOf c) = c := by
  apply Fin.ext; simp only [headOf, laneOf, featOf]; omega

end Cert.Mhsa

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelRow.lean ====
/-
  The kernel's arithmetic, read at one entry.

  The body of the fused attention kernel is one pure term over the block of 256 tokens it loads, the fused projection's
  weights (part-major: all queries, then all keys, then all values) and bias row, and the output projection's weights
  and bias row.  Read at row `p` and column `e'`, over the extended reals, it is the row function of the specification
  applied to token `p`:

    * the fused projection is a plain product into a zero accumulator plus a bias row repeated over the tokens;
    * part `j` is the slice of 1024 columns at offset `j·1024`, split into 16 heads of 64 lanes — column
      `j·1024 + h·64 + e`;
    * the scores contract the lanes of a query row against a key row OF THE SAME TOKEN (the token axis is a batch axis),
      and are scaled by the word for 1/8;
    * the row maximum and the row sum are reductions over the last axis, kept as a unit axis and repeated along it;
    * the context contracts the 16 softmax weights of a head against the value rows of the token;
    * the heads are laid side by side again (`c ↦ (c / 64, c % 64)`) and go through the output projection, another
      plain product plus a bias row.

  Changes of format between the 32-bit and 16-bit float types are the identity on extended reals, and a reshape to the
  same shape is the identity.
-/
import proofs.«175739_j64132451663943_2_alg».proof.Proof.Gen.KernelIdeal.Skeleton
import proofs.«175739_j64132451663943_2_alg».proof.Proof.Spec
import proofs.«175739_j64132451663943_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Mhsa Idealize.ShloMosaic Idealize.ShloMosaic.ValueIdx

/-! ## The two plain products -/

/-- The fused projection's product at row `p`, column `c`: the sum over the 1024 input features. -/
theorem projDot_apply (l : FVec Ideal S256x1024 .bf16) (r : FVec Ideal S1024x3072 .bf16) (p : Fin 256) (c : Fin 3072) :
    matmul dot_S256x1024_S1024x3072_S256x3072_1_0_0_1_n_n none l r (constant (F := Ideal) S256x3072 .f32 0x00000000#32) (ix2 p c)
      = ∑ d : Fin 1024, l (ix2 p d) * r (ix2 d c) :=
  Cert.Lib.PlainDot.matmul_zero_apply 256 1024 3072 none l r (ix2 p c)

/-- The output projection's product at row `p`, column `e'`: the sum over the 1024 context features. -/
theorem outDot_apply (l : FVec Ideal S256x1024 .bf16) (r : FVec Ideal S1024x1024 .bf16) (p : Fin 256) (e' : Fin 1024) :
    matmul dot_S256x1024_S1024x1024_S256x1024_1_0_0_1_n_n none l r (constant (F := Ideal) S256x1024 .f32 0x00000000#32) (ix2 p e')
      = ∑ c : Fin 1024, l (ix2 p c) * r (ix2 c e') :=
  Cert.Lib.PlainDot.matmul_zero_apply 256 1024 1024 none l r (ix2 p e')

/-! ## Slices, reshapes and the keepdims column -/

/-- Part `j` of the fused projection, cut out at column offset `j·1024` and split into 16 heads of 64 lanes: entry
    `(p, h, e)` is the projection's column `j·1024 + h·64 + e` of row `p`. -/
theorem part_apply {α : Type} (X : S256x3072.Idx → α) (o : Nat) (hs : S256x3072.Slices ![0, o] S256x1024)
    (hc : S256x1024.ShapeCasts S256x16x64) (j : Fin 3) (ho : o = j.val * 1024) (p : Fin 256) (h : Fin 16) (e : Fin 64) :
    shapeCast S256x16x64 (extractStridedSlice S256x1024 ![0, o] X hs) hc (ix3 p h e) = X (ix2 p (partMajor h j e)) := by
  refine (shapeCast_apply _ hc (ix3 p h e) (ix2 p (featOf h e)) ?_).trans ?_
  · rw [Shape.rowMajor_val_two, Shape.rowMajor_val_three]
    show p.val * 1024 + (h.val * 64 + e.val) = (p.val * 16 + h.val) * 64 + e.val
    omega
  · exact slice2_axis1_apply o X hs p (featOf h e) (partMajor h j e) (by simp only [partMajor, featOf]; omega)

/-- The 16 heads of 64 lanes laid side by side again: column `c` of row `p` is entry `(p, c / 64, c % 64)`. -/
theorem merge_apply {α : Type} (C : S256x16x64.Idx → α) (hc : S256x16x64.ShapeCasts S256x1024) (p : Fin 256) (c : Fin 1024) :
    shapeCast S256x1024 C hc (ix2 p c) = C (ix3 p (headOf c) (laneOf c)) :=
  shapeCast_apply C hc _ _ (by
    rw [Shape.rowMajor_val_two, Shape.rowMajor_val_three]
    show (p.val * 16 + c.val / 64) * 64 + c.val % 64 = p.val * 1024 + c.val
    omega)

/-- A per-head column `[256, 16]` given a unit last axis and repeated along it 16 times: entry `(p, h, g)` is the
    column's entry `(p, h)`, whatever `g`. -/
theorem keep_apply {α : Type} (m : S256x16.Idx → α) (hc : S256x16.ShapeCasts S256x16x1) (hb : S256x16x1.Broadcasts S256x16x16)
    (p : Fin 256) (h g : Fin 16) :
    broadcastTo S256x16x16 (shapeCast S256x16x1 m hc) hb (ix3 p h g) = m (ix2 p h) := by
  refine (broadcastTo_apply _ hb (ix3 p h g) (ix3 p h (0 : Fin 1)) fun a => ?_).trans ?_
  · match a with
    | ⟨0, _⟩ => rfl
    | ⟨1, _⟩ => rfl
    | ⟨2, _⟩ => rfl
  · exact shapeCast_apply m hc _ _ (by
      rw [Shape.rowMajor_val_two, Shape.rowMajor_val_three]
      show p.val * 16 + h.val = (p.val * 16 + h.val) * 1 + 0
      omega)

/-! ## The two products batched over the token axis

Both contract one axis and carry the token axis 0 as a batch axis, so at an output index the contraction index is one
coordinate, and each operand is read at the token, its own free coordinate and that coordinate. -/

theorem scoreLhs_0 (i : S256x16x16.Idx) (q : dot_S256x16x64_S256x16x64_S256x16x16_2_2_1_1_0_0.contr.Idx) :
    (dot_S256x16x64_S256x16x64_S256x16x16_2_2_1_1_0_0.lhsIdx i q 0).val = (i 0).val := by
  unfold DotDims.lhsIdx
  rw [dif_pos (show (0 : Fin S256x16x64.rank) ∈ dot_S256x16x64_S256x16x64_S256x16x16_2_2_1_1_0_0.lhsBatch by decide)]
  rfl
theorem scoreLhs_1 (i : S256x16x16.Idx) (q : dot_S256x16x64_S256x16x64_S256x16x16_2_2_1_1_0_0.contr.Idx) :
    (dot_S256x16x64_S256x16x64_S256x16x16_2_2_1_1_0_0.lhsIdx i q 1).val = (i 1).val := by
  unfold DotDims.lhsIdx
  rw [dif_neg (show ¬(1 : Fin S256x16x64.rank) ∈ dot_S256x16x64_S256x16x64_S256x16x16_2_2_1_1_0_0.lhsBatch by decide), dif_pos (show (1 : Fin S256x16x64.rank) ∈ dot_S256x16x64_S256x16x64_S256x16x16_2_2_1_1_0_0.lhsNonContracting by decide)]
  rfl
theorem scoreLhs_2 (i : S256x16x16.Idx) (q : dot_S256x16x64_S256x16x64_S256x16x16_2_2_1_1_0_0.contr.Idx) :
    (dot_S256x16x64_S256x16x64_S256x16x16_2_2_1_1_0_0.lhsIdx i q 2).val = (q ⟨0, by decide⟩).val :=
  dot_S256x16x64_S256x16x64_S256x16x16_2_2_1_1_0_0.lhsIdx_val_of_single rfl i q
theorem scoreRhs_0 (i : S256x16x16.Idx) (q : dot_S256x16x64_S256x16x64_S256x16x16_2_2_1_1_0_0.contr.Idx) :
    (dot_S256x16x64_S256x16x64_S256x16x16_2_2_1_1_0_0.rhsIdx i q 0).val = (i 0).val := by
  unfold DotDims.rhsIdx
  rw [dif_pos (show (0 : Fin S256x16x64.rank) ∈ dot_S256x16x64_S256x16x64_S256x16x16_2_2_1_1_0_0.rhsBatch by decide)]
  rfl
theorem scoreRhs_1 (i : S256x16x16.Idx) (q : dot_S256x16x64_S256x16x64_S256x16x16_2_2_1_1_0_0.contr.Idx) :
    (dot_S256x16x64_S256x16x64_S256x16x16_2_2_1_1_0_0.rhsIdx i q 1).val = (i 2).val := by
  unfold DotDims.rhsIdx
  rw [dif_neg (show ¬(1 : Fin S256x16x64.rank) ∈ dot_S256x16x64_S256x16x64_S256x16x16_2_2_1_1_0_0.rhsBatch by decide), dif_pos (show (1 : Fin S256x16x64.rank) ∈ dot_S256x16x64_S256x16x64_S256x16x16_2_2_1_1_0_0.rhsNonContracting by decide)]
  rfl
theorem scoreRhs_2 (i : S256x16x16.Idx) (q : dot_S256x16x64_S256x16x64_S256x16x16_2_2_1_1_0_0.contr.Idx) :
    (dot_S256x16x64_S256x16x64_S256x16x16_2_2_1_1_0_0.rhsIdx i q 2).val = (q ⟨0, by decide⟩).val :=
  dot_S256x16x64_S256x16x64_S256x16x16_2_2_1_1_0_0.rhsIdx_val_of_single rfl i q

/-- 'thd,tgd->thg' into a zero accumulator: entry `(p, h, g)` is the sum over the 64 lanes of head `h`'s row of the
    left operand times head `g`'s row of the right one, both of token `p`. -/
theorem scoreDot_apply (Q K : FVec Ideal S256x16x64 .bf16) (p : Fin 256) (h g : Fin 16) :
    matmul dot_S256x16x64_S256x16x64_S256x16x16_2_2_1_1_0_0 none Q K (constant (F := Ideal) S256x16x16 .f32 0x00000000#32) (ix3 p h g)
      = ∑ e : Fin 64, Q (ix3 p h e) * K (ix3 p g e) := by
  show FloatOps.matmul dot_S256x16x64_S256x16x64_S256x16x16_2_2_1_1_0_0 none Q K (constant (F := Ideal) S256x16x16 .f32 0x00000000#32) (ix3 p h g) = _
  rw [Ideal.matmul_constant_zero_apply, ← Equiv.sum_comp (contrEquiv1 dot_S256x16x64_S256x16x64_S256x16x16_2_2_1_1_0_0 64 rfl rfl).symm]
  refine Finset.sum_congr rfl fun k _ => ?_
  have hk := contrEquiv1_symm_val dot_S256x16x64_S256x16x64_S256x16x16_2_2_1_1_0_0 64 rfl rfl k
  have el : dot_S256x16x64_S256x16x64_S256x16x16_2_2_1_1_0_0.lhsIdx (ix3 p h g) ((contrEquiv1 dot_S256x16x64_S256x16x64_S256x16x16_2_2_1_1_0_0 64 rfl rfl).symm k) = ix3 p h k :=
    funext fun a => Fin.ext (by
      match a with
      | ⟨0, _⟩ => exact scoreLhs_0 _ _
      | ⟨1, _⟩ => exact scoreLhs_1 _ _
      | ⟨2, _⟩ => exact (scoreLhs_2 _ _).trans hk)
  have er : dot_S256x16x64_S256x16x64_S256x16x16_2_2_1_1_0_0.rhsIdx (ix3 p h g) ((contrEquiv1 dot_S256x16x64_S256x16x64_S256x16x16_2_2_1_1_0_0 64 rfl rfl).symm k) = ix3 p g k :=
    funext fun a => Fin.ext (by
      match a with
      | ⟨0, _⟩ => exact scoreRhs_0 _ _
      | ⟨1, _⟩ => exact scoreRhs_1 _ _
      | ⟨2, _⟩ => exact (scoreRhs_2 _ _).trans hk)
  rw [el, er]

theorem ctxLhs_0 (i : S256x16x64.Idx) (q : dot_S256x16x16_S256x16x64_S256x16x64_2_1_1_2_0_0.contr.Idx) :
    (dot_S256x16x16_S256x16x64_S256x16x64_2_1_1_2_0_0.lhsIdx i q 0).val = (i 0).val := by
  unfold DotDims.lhsIdx
  rw [dif_pos (show (0 : Fin S256x16x16.rank) ∈ dot_S256x16x16_S256x16x64_S256x16x64_2_1_1_2_0_0.lhsBatch by decide)]
  rfl
theorem ctxLhs_1 (i : S256x16x64.Idx) (q : dot_S256x16x16_S256x16x64_S256x16x64_2_1_1_2_0_0.contr.Idx) :
    (dot_S256x16x16_S256x16x64_S256x16x64_2_1_1_2_0_0.lhsIdx i q 1).val = (i 1).val := by
  unfold DotDims.lhsIdx
  rw [dif_neg (show ¬(1 : Fin S256x16x16.rank) ∈ dot_S256x16x16_S256x16x64_S256x16x64_2_1_1_2_0_0.lhsBatch by decide), dif_pos (show (1 : Fin S256x16x16.rank) ∈ dot_S256x16x16_S256x16x64_S256x16x64_2_1_1_2_0_0.lhsNonContracting by decide)]
  rfl
theorem ctxLhs_2 (i : S256x16x64.Idx) (q : dot_S256x16x16_S256x16x64_S256x16x64_2_1_1_2_0_0.contr.Idx) :
    (dot_S256x16x16_S256x16x64_S256x16x64_2_1_1_2_0_0.lhsIdx i q 2).val = (q ⟨0, by decide⟩).val :=
  dot_S256x16x16_S256x16x64_S256x16x64_2_1_1_2_0_0.lhsIdx_val_of_single rfl i q
theorem ctxRhs_0 (i : S256x16x64.Idx) (q : dot_S256x16x16_S256x16x64_S256x16x64_2_1_1_2_0_0.contr.Idx) :
    (dot_S256x16x16_S256x16x64_S256x16x64_2_1_1_2_0_0.rhsIdx i q 0).val = (i 0).val := by
  unfold DotDims.rhsIdx
  rw [dif_pos (show (0 : Fin S256x16x64.rank) ∈ dot_S256x16x16_S256x16x64_S256x16x64_2_1_1_2_0_0.rhsBatch by decide)]
  rfl
theorem ctxRhs_1 (i : S256x16x64.Idx) (q : dot_S256x16x16_S256x16x64_S256x16x64_2_1_1_2_0_0.contr.Idx) :
    (dot_S256x16x16_S256x16x64_S256x16x64_2_1_1_2_0_0.rhsIdx i q 1).val = (q ⟨0, by decide⟩).val :=
  dot_S256x16x16_S256x16x64_S256x16x64_2_1_1_2_0_0.rhsIdx_val_of_single rfl i q
theorem ctxRhs_2 (i : S256x16x64.Idx) (q : dot_S256x16x16_S256x16x64_S256x16x64_2_1_1_2_0_0.contr.Idx) :
    (dot_S256x16x16_S256x16x64_S256x16x64_2_1_1_2_0_0.rhsIdx i q 2).val = (i 2).val := by
  unfold DotDims.rhsIdx
  rw [dif_neg (show ¬(2 : Fin S256x16x64.rank) ∈ dot_S256x16x16_S256x16x64_S256x16x64_2_1_1_2_0_0.rhsBatch by decide), dif_pos (show (2 : Fin S256x16x64.rank) ∈ dot_S256x16x16_S256x16x64_S256x16x64_2_1_1_2_0_0.rhsNonContracting by decide)]
  rfl

/-- 'thg,tgd->thd' into a zero accumulator: entry `(p, h, e)` is the sum over the 16 heads `g` of the left operand's
    `(p, h, g)` times lane `e` of head `g`'s row of the right one. -/
theorem ctxDot_apply (A : FVec Ideal S256x16x16 .bf16) (V : FVec Ideal S256x16x64 .bf16) (p : Fin 256) (h : Fin 16) (e : Fin 64) :
    matmul dot_S256x16x16_S256x16x64_S256x16x64_2_1_1_2_0_0 none A V (constant (F := Ideal) S256x16x64 .f32 0x00000000#32) (ix3 p h e)
      = ∑ g : Fin 16, A (ix3 p h g) * V (ix3 p g e) := by
  show FloatOps.matmul dot_S256x16x16_S256x16x64_S256x16x64_2_1_1_2_0_0 none A V (constant (F := Ideal) S256x16x64 .f32 0x00000000#32) (ix3 p h e) = _
  rw [Ideal.matmul_constant_zero_apply, ← Equiv.sum_comp (contrEquiv1 dot_S256x16x16_S256x16x64_S256x16x64_2_1_1_2_0_0 16 rfl rfl).symm]
  refine Finset.sum_congr rfl fun k _ => ?_
  have hk := contrEquiv1_symm_val dot_S256x16x16_S256x16x64_S256x16x64_2_1_1_2_0_0 16 rfl rfl k
  have el : dot_S256x16x16_S256x16x64_S256x16x64_2_1_1_2_0_0.lhsIdx (ix3 p h e) ((contrEquiv1 dot_S256x16x16_S256x16x64_S256x16x64_2_1_1_2_0_0 16 rfl rfl).symm k) = ix3 p h k :=
    funext fun a => Fin.ext (by
      match a with
      | ⟨0, _⟩ => exact ctxLhs_0 _ _
      | ⟨1, _⟩ => exact ctxLhs_1 _ _
      | ⟨2, _⟩ => exact (ctxLhs_2 _ _).trans hk)
  have er : dot_S256x16x16_S256x16x64_S256x16x64_2_1_1_2_0_0.rhsIdx (ix3 p h e) ((contrEquiv1 dot_S256x16x16_S256x16x64_S256x16x64_2_1_1_2_0_0 16 rfl rfl).symm k) = ix3 p k e :=
    funext fun a => Fin.ext (by
      match a with
      | ⟨0, _⟩ => exact ctxRhs_0 _ _
      | ⟨1, _⟩ => exact (ctxRhs_1 _ _).trans hk
      | ⟨2, _⟩ => exact ctxRhs_2 _ _)
  rw [el, er]

/-! ## The two reductions over the last axis of `[256, 16, 16]` -/

/-- The entry of `[256, 16, 16]` that coordinate `g` of the reduced axis puts back under `(p, h)`. -/
theorem lift_apply (p : Fin 256) (h g : Fin 16) :
    Shape.Reduces.lift reduces_S256x16x16_S256x16 (ix2 p h) g = ix3 p h g :=
  funext fun a => Fin.ext (by
    match a with
    | ⟨0, _⟩ => rfl
    | ⟨1, _⟩ => rfl
    | ⟨2, _⟩ => rfl)

/-- The maximum over the last axis, started from the word for −∞: at `(p, h)` the fold of `max` over `g`. -/
theorem lastMax_apply (S : FVec Ideal S256x16x16 .f32) (p : Fin 256) (h : Fin 16) :
    multiReduction (F := Ideal) .maximumf [2] S256x16 S 0xFF800000#32 reduces_S256x16x16_S256x16 (.inl rfl) rfl (ix2 p h)
      = (Finset.univ : Finset (Fin 16)).fold max negInfW (fun g => S (ix3 p h g)) := by
  refine (Ideal.multiReduction_maximumf_single S 0xFF800000#32 reduces_S256x16x16_S256x16 (.inl rfl) rfl (ix2 p h)).trans ?_
  exact congrArg (fun f : Fin 16 → EReal => (Finset.univ : Finset (Fin 16)).fold max negInfW f)
    (funext fun g => congrArg S (lift_apply p h g))

/-- The sum over the last axis, started from the zero word: at `(p, h)` the sum over `g`. -/
theorem lastSum_apply (E : FVec Ideal S256x16x16 .f32) (p : Fin 256) (h : Fin 16) :
    multiReduction (F := Ideal) .add [2] S256x16 E 0x00000000#32 reduces_S256x16x16_S256x16 (.inl rfl) rfl (ix2 p h)
      = ∑ g : Fin 16, E (ix3 p h g) := by
  refine (Ideal.multiReduction_add_single E 0x00000000#32 reduces_S256x16x16_S256x16 (.inl rfl) rfl (ix2 p h)).trans ?_
  exact Finset.sum_congr rfl fun g _ => congrArg E (lift_apply p h g)

/-! ## The body, stage by stage

The kernel's body is one term; here it is cut into its stages, each a function of the vectors it reads, so that each
can be read at an index on its own. -/

/-- The fused projection of the block of tokens: `x · W + b`, a `[256, 3072]` array. -/
def kProj (v0 : Vec Ideal S256x1024 .f32) (v3 : Vec Ideal S1024x3072 .bf16) (v6 : Vec Ideal S1x3072 .f32) :
    FVec Ideal S256x3072 .f32 :=
  addf
    (matmul dot_S256x1024_S1024x3072_S256x3072_1_0_0_1_n_n none
      (truncf .bf16 (shapeCast S256x1024 v0 shapeCasts_S256x1024_S256x1024 : FVec Ideal S256x1024 .f32) bitsLt_bf16_f32)
      (shapeCast S1024x3072 v3 shapeCasts_S1024x3072_S1024x3072 : FVec Ideal S1024x3072 .bf16) (constant S256x3072 .f32 0x00000000#32))
    (broadcastTo S256x3072 (shapeCast S1x3072 v6 shapeCasts_S1x3072_S1x3072 : FVec Ideal S1x3072 .f32) broadcasts_S1x3072_S256x3072)

/-- The query part of the projection, by head: columns `0 … 1023` as `[256, 16, 64]`. -/
def kPart0 (X : FVec Ideal S256x3072 .f32) : FVec Ideal S256x16x64 .bf16 :=
  truncf .bf16 (shapeCast S256x16x64 (extractStridedSlice S256x1024 ![0, 0] X slices_S256x3072_o0_0_S256x1024)
    shapeCasts_S256x1024_S256x16x64) bitsLt_bf16_f32
/-- The key part: columns `1024 … 2047`. -/
def kPart1 (X : FVec Ideal S256x3072 .f32) : FVec Ideal S256x16x64 .bf16 :=
  truncf .bf16 (shapeCast S256x16x64 (extractStridedSlice S256x1024 ![0, 1024] X slices_S256x3072_o0_1024_S256x1024)
    shapeCasts_S256x1024_S256x16x64) bitsLt_bf16_f32
/-- The value part: columns `2048 … 3071`. -/
def kPart2 (X : FVec Ideal S256x3072 .f32) : FVec Ideal S256x16x64 .bf16 :=
  truncf .bf16 (shapeCast S256x16x64 (extractStridedSlice S256x1024 ![0, 2048] X slices_S256x3072_o0_2048_S256x1024)
    shapeCasts_S256x1024_S256x16x64) bitsLt_bf16_f32

/-- The scaled scores of every head's query against every head's key, per token. -/
def kScore (Q K : FVec Ideal S256x16x64 .bf16) : FVec Ideal S256x16x16 .f32 :=
  mulf (matmul dot_S256x16x64_S256x16x64_S256x16x16_2_2_1_1_0_0 none Q K (constant S256x16x16 .f32 0x00000000#32))
    (broadcast S256x16x16 (Scalar.ofBits .f32 0x3E000000#32))

/-- A `[256, 16]` column repeated along a new last axis of length 16. -/
def kKeep (m : FVec Ideal S256x16 .f32) : FVec Ideal S256x16x16 .f32 :=
  broadcastTo S256x16x16 (shapeCast S256x16x1 m shapeCasts_S256x16_S256x16x1) broadcasts_S256x16x1_S256x16x16

/-- The exponentials of the scores, each row shifted by its maximum. -/
def kExp (S : FVec Ideal S256x16x16 .f32) : FVec Ideal S256x16x16 .f32 :=
  exp (subf S (kKeep (multiReduction .maximumf [2] S256x16 S 0xFF800000#32 reduces_S256x16x16_S256x16 (.inl rfl) rfl)))

/-- The softmax weights: each row of exponentials divided by its sum. -/
def kAttn (E : FVec Ideal S256x16x16 .f32) : FVec Ideal S256x16x16 .bf16 :=
  truncf .bf16
    (divf E (kKeep (multiReduction .add [2] S256x16 E 0x00000000#32 reduces_S256x16x16_S256x16 (.inl rfl) rfl)))
    bitsLt_bf16_f32

/-- The context: the weights applied to the value part, per token. -/
def kCtx (A : FVec Ideal S256x16x16 .bf16) (V : FVec Ideal S256x16x64 .bf16) : FVec Ideal S256x16x64 .f32 :=
  matmul dot_S256x16x16_S256x16x64_S256x16x64_2_1_1_2_0_0 none A V (constant S256x16x64 .f32 0x00000000#32)

/-- The output projection of the context, its heads laid side by side: `c · Wo + bo`. -/
def kOut (C : FVec Ideal S256x16x64 .f32) (v35 : Vec Ideal S1024x1024 .bf16) (v38 : Vec Ideal S1x1024 .f32) :
    FVec Ideal S256x1024 .f32 :=
  addf
    (matmul dot_S256x1024_S1024x1024_S256x1024_1_0_0_1_n_n none
      (truncf .bf16 (shapeCast S256x1024 C shapeCasts_S256x16x64_S256x1024) bitsLt_bf16_f32)
      (shapeCast S1024x1024 v35 shapeCasts_S1024x1024_S1024x1024 : FVec Ideal S1024x1024 .bf16) (constant S256x1024 .f32 0x00000000#32))
    (broadcastTo S256x1024 (shapeCast S1x1024 v38 shapeCasts_S1x1024_S1x1024 : FVec Ideal S1x1024 .f32) broadcasts_S1x1024_S256x1024)

/-- The kernel's body is the composition of its stages. -/
theorem pay_eq_stages (v0 : Vec Ideal S256x1024 .f32) (v3 : Vec Ideal S1024x3072 .bf16) (v6 : Vec Ideal S1x3072 .f32)
    (v35 : Vec Ideal S1024x1024 .bf16) (v38 : Vec Ideal S1x1024 .f32) :
    k0_pay1 (F := Ideal) v0 v3 v6 v35 v38
      = kOut (kCtx (kAttn (kExp (kScore (kPart0 (kProj v0 v3 v6)) (kPart1 (kProj v0 v3 v6)))))
          (kPart2 (kProj v0 v3 v6))) v35 v38 := rfl

/-! ## Each stage at an index -/

/-- The exponential of a vector at an index is the exponential of the entry. -/
theorem exp_apply {s : Shape} {φ : FTy} (x : FVec Ideal s φ) (i : s.Idx) : exp x i = Ideal.exp (x i) := rfl

theorem kProj_apply (v0 : Vec Ideal S256x1024 .f32) (v3 : Vec Ideal S1024x3072 .bf16) (v6 : Vec Ideal S1x3072 .f32)
    (p : Fin 256) (c : Fin 3072) :
    kProj v0 v3 v6 (ix2 p c)
      = (∑ d : Fin 1024, (v0 (ix2 p d) : EReal) * (v3 (ix2 d c) : EReal)) + (v6 (ix2 (0 : Fin 1) c) : EReal) := by
  unfold kProj
  rw [addf_apply, projDot_apply, broadcastTo_1b_ab_apply, shapeCast_self, shapeCast_self, shapeCast_self]
  rfl

theorem kPart0_apply (X : FVec Ideal S256x3072 .f32) (p : Fin 256) (h : Fin 16) (e : Fin 64) :
    kPart0 X (ix3 p h e) = X (ix2 p (partMajor h 0 e)) :=
  part_apply X 0 slices_S256x3072_o0_0_S256x1024 shapeCasts_S256x1024_S256x16x64 0 (by decide) p h e
theorem kPart1_apply (X : FVec Ideal S256x3072 .f32) (p : Fin 256) (h : Fin 16) (e : Fin 64) :
    kPart1 X (ix3 p h e) = X (ix2 p (partMajor h 1 e)) :=
  part_apply X 1024 slices_S256x3072_o0_1024_S256x1024 shapeCasts_S256x1024_S256x16x64 1 (by decide) p h e
theorem kPart2_apply (X : FVec Ideal S256x3072 .f32) (p : Fin 256) (h : Fin 16) (e : Fin 64) :
    kPart2 X (ix3 p h e) = X (ix2 p (partMajor h 2 e)) :=
  part_apply X 2048 slices_S256x3072_o0_2048_S256x1024 shapeCasts_S256x1024_S256x16x64 2 (by decide) p h e

theorem kScore_apply (Q K : FVec Ideal S256x16x64 .bf16) (p : Fin 256) (h g : Fin 16) :
    kScore Q K (ix3 p h g) = (∑ e : Fin 64, Q (ix3 p h e) * K (ix3 p g e)) * scaleW := by
  unfold kScore
  rw [mulf_apply, scoreDot_apply]
  rfl

theorem kExp_apply (S : FVec Ideal S256x16x16 .f32) (p : Fin 256) (h g : Fin 16) :
    kExp S (ix3 p h g)
      = Ideal.exp (S (ix3 p h g) - (Finset.univ : Finset (Fin 16)).fold max negInfW (fun g' => S (ix3 p h g'))) := by
  unfold kExp kKeep
  rw [exp_apply, subf_apply, keep_apply, lastMax_apply]

theorem kAttn_apply (E : FVec Ideal S256x16x16 .f32) (p : Fin 256) (h g : Fin 16) :
    kAttn E (ix3 p h g) = Ideal.div (E (ix3 p h g)) (∑ g' : Fin 16, E (ix3 p h g')) := by
  unfold kAttn kKeep
  rw [truncf_apply, divf_apply, keep_apply, lastSum_apply]

theorem kCtx_apply (A : FVec Ideal S256x16x16 .bf16) (V : FVec Ideal S256x16x64 .bf16) (p : Fin 256) (h : Fin 16) (e : Fin 64) :
    kCtx A V (ix3 p h e) = ∑ g : Fin 16, A (ix3 p h g) * V (ix3 p g e) :=
  ctxDot_apply A V p h e

theorem kOut_apply (C : FVec Ideal S256x16x64 .f32) (v35 : Vec Ideal S1024x1024 .bf16) (v38 : Vec Ideal S1x1024 .f32)
    (p : Fin 256) (e' : Fin 1024) :
    kOut C v35 v38 (ix2 p e')
      = (∑ c : Fin 1024, C (ix3 p (headOf c) (laneOf c)) * (v35 (ix2 c e') : EReal)) + (v38 (ix2 (0 : Fin 1) e') : EReal) := by
  unfold kOut
  rw [addf_apply, outDot_apply, broadcastTo_1b_ab_apply, shapeCast_self, shapeCast_self]
  refine congrArg (· + (v38 (ix2 (0 : Fin 1) e') : EReal)) (Finset.sum_congr rfl fun c _ => ?_)
  rw [truncf_apply, merge_apply]

/-! ## The body at an index is the row function of the token -/

/-- At row `p` and column `e'` the kernel's body is the row function applied to token `p` of the block, with the fused
    projection's weights and bias read in the part-major layout. -/
theorem pay_row (v0 : Vec Ideal S256x1024 .f32) (v3 : Vec Ideal S1024x3072 .bf16) (v6 : Vec Ideal S1x3072 .f32)
    (v35 : Vec Ideal S1024x1024 .bf16) (v38 : Vec Ideal S1x1024 .f32) (p : Fin 256) (e' : Fin 1024) :
    k0_pay1 (F := Ideal) v0 v3 v6 v35 v38 (ix2 p e')
      = rowOut (fun h j e d => v3 (ix2 d (partMajor h j e))) (fun h j e => v6 (ix2 (0 : Fin 1) (partMajor h j e)))
          (fun a c => v35 (ix2 a c)) (fun c => v38 (ix2 (0 : Fin 1) c)) (fun d => v0 (ix2 p d)) e' := by
  rw [pay_eq_stages]
  -- the projection, then its three parts, are the row function's `proj`
  have hX := kProj_apply v0 v3 v6 p
  generalize kProj v0 v3 v6 = X at hX ⊢
  have hQ : ∀ h e, kPart0 X (ix3 p h e) = proj (fun h j e d => v3 (ix2 d (partMajor h j e)))
      (fun h j e => v6 (ix2 (0 : Fin 1) (partMajor h j e))) (fun d => v0 (ix2 p d)) h 0 e :=
    fun h e => (kPart0_apply X p h e).trans (hX _)
  have hK : ∀ h e, kPart1 X (ix3 p h e) = proj (fun h j e d => v3 (ix2 d (partMajor h j e)))
      (fun h j e => v6 (ix2 (0 : Fin 1) (partMajor h j e))) (fun d => v0 (ix2 p d)) h 1 e :=
    fun h e => (kPart1_apply X p h e).trans (hX _)
  have hV : ∀ h e, kPart2 X (ix3 p h e) = proj (fun h j e d => v3 (ix2 d (partMajor h j e)))
      (fun h j e => v6 (ix2 (0 : Fin 1) (partMajor h j e))) (fun d => v0 (ix2 p d)) h 2 e :=
    fun h e => (kPart2_apply X p h e).trans (hX _)
  generalize kPart0 X = Q at hQ ⊢
  generalize kPart1 X = K at hK ⊢
  generalize kPart2 X = V at hV ⊢
  -- the scores, their shifted exponentials and the softmax weights
  have hS : ∀ h g, kScore Q K (ix3 p h g) = score (fun h j e d => v3 (ix2 d (partMajor h j e)))
      (fun h j e => v6 (ix2 (0 : Fin 1) (partMajor h j e))) (fun d => v0 (ix2 p d)) h g := fun h g => by
    rw [kScore_apply]
    exact congrArg (· * scaleW) (Finset.sum_congr rfl fun e _ => by rw [hQ, hK])
  generalize kScore Q K = S at hS ⊢
  have hE : ∀ h g, kExp S (ix3 p h g) = expd (fun h j e d => v3 (ix2 d (partMajor h j e)))
      (fun h j e => v6 (ix2 (0 : Fin 1) (partMajor h j e))) (fun d => v0 (ix2 p d)) h g := fun h g => by
    rw [kExp_apply, hS, show (fun g' => S (ix3 p h g')) = fun g' => score (fun h j e d => v3 (ix2 d (partMajor h j e)))
      (fun h j e => v6 (ix2 (0 : Fin 1) (partMajor h j e))) (fun d => v0 (ix2 p d)) h g' from funext fun g' => hS h g']
    rfl
  generalize kExp S = E at hE ⊢
  have hA : ∀ h g, kAttn E (ix3 p h g) = attn (fun h j e d => v3 (ix2 d (partMajor h j e)))
      (fun h j e => v6 (ix2 (0 : Fin 1) (partMajor h j e))) (fun d => v0 (ix2 p d)) h g := fun h g => by
    rw [kAttn_apply, hE, Finset.sum_congr rfl fun g' _ => hE h g']
    rfl
  generalize kAttn E = A at hA ⊢
  -- the context and the output projection
  have hC : ∀ h e, kCtx A V (ix3 p h e) = ctx (fun h j e d => v3 (ix2 d (partMajor h j e)))
      (fun h j e => v6 (ix2 (0 : Fin 1) (partMajor h j e))) (fun d => v0 (ix2 p d)) h e := fun h e => by
    rw [kCtx_apply]
    exact Finset.sum_congr rfl fun g _ => by rw [hA, hV]
  generalize kCtx A V = C at hC ⊢
  rw [kOut_apply]
  exact congrArg (· + (v38 (ix2 (0 : Fin 1) e') : EReal)) (Finset.sum_congr rfl fun c _ => by rw [hC])

end Cert.KernelIdeal.Hand

end
-- ==== Proof.EntryReads.lean ====
/-
  What the region finds in memory, read one element at a time.

  Before its one region the program re-lays its arguments: the fused projection's weight matrix has its 3072
  columns permuted from the head-major order  h·192 + j·64 + e  to the part-major order  j·1024 + h·64 + e
  (reshape to [1024,16,3,64], the three unit slices along the part axis, each flattened to [1024,1024], the three
  concatenated along the columns, then a format change that is the identity on extended reals); the fused bias goes
  through the same permutation as a vector and becomes a one-row matrix; the output weights only change format; the
  output bias becomes a one-row matrix; and the [2,8192,1024] token array is flattened to 16384 rows, row
  r = b·8192 + s.  Each theorem below reads one of the re-laid arrays at an index and names the element of the
  ARGUMENT array found there.
-/
import proofs.«175739_j64132451663943_2_alg».proof.Proof.EntryArrays
import proofs.«175739_j64132451663943_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Cert.Mhsa
open Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-! ## The three arrays that one operation writes -/

/-- Flattening [2,8192,1024] to [16384,1024]: row `r` is token `r % 8192` of batch `r / 8192`. -/
theorem flatten_tokens_apply {α : Type} (x : S2x8192x1024.Idx → α) (r : Fin 16384) (d : Fin 1024) :
    shapeCast S16384x1024 x shapeCasts_S2x8192x1024_S16384x1024 (ix2 r d)
      = x (ix3 (⟨r.val / 8192, by omega⟩ : Fin 2) (⟨r.val % 8192, Nat.mod_lt _ (by decide)⟩ : Fin 8192) d) := by
  refine shapeCast_apply x shapeCasts_S2x8192x1024_S16384x1024 (ix2 r d) _ ?_
  rw [Shape.rowMajor_val_three, Shape.rowMajor_val_two]
  show (r.val / 8192 * 8192 + r.val % 8192) * 1024 + d.val = r.val * 1024 + d.val
  omega

/-- A vector of 1024 entries as a one-row matrix: the row is the vector. -/
theorem row_of_vector_apply {α : Type} (x : S1024.Idx → α) (e' : Fin 1024) :
    shapeCast S1x1024 x shapeCasts_S1024_S1x1024 (ix2 (0 : Fin 1) e') = x (ix1 e') := by
  refine shapeCast_apply x shapeCasts_S1024_S1x1024 (ix2 (0 : Fin 1) e') _ ?_
  rw [Shape.rowMajor_val_one, Shape.rowMajor_val_two]
  show e'.val = 0 * 1024 + e'.val
  omega

/-- The flattened token array is the argument reshaped. -/
theorem V_tokens_eq :
    (V m c main_v26 : S16384x1024.Idx → EReal)
      = shapeCast S16384x1024 (m ((c : Thread nD τ).loc main_arg0) : S2x8192x1024.Idx → EReal)
          shapeCasts_S2x8192x1024_S16384x1024 := by
  dsimp only [V, V0, hostOps0]
  simp only [List.flatten_cons, List.flatten_nil, List.append_nil]
  after_results
  rfl

/-- Row `r` of the flattened tokens is token `r % 8192` of batch `r / 8192`. -/
theorem V_tokens (r : Fin 16384) (d : Fin 1024) :
    (V m c main_v26 : S16384x1024.Idx → EReal) (ix2 r d)
      = (m ((c : Thread nD τ).loc main_arg0) : S2x8192x1024.Idx → EReal)
          (ix3 (⟨r.val / 8192, by omega⟩ : Fin 2) (⟨r.val % 8192, Nat.mod_lt _ (by decide)⟩ : Fin 8192) d) :=
  (congrFun (V_tokens_eq m c) (ix2 r d)).trans (flatten_tokens_apply _ r d)

/-- The output bias as a one-row matrix is the argument reshaped. -/
theorem V_bout_eq :
    (V m c main_v25 : S1x1024.Idx → EReal)
      = shapeCast S1x1024 (m ((c : Thread nD τ).loc main_arg4) : S1024.Idx → EReal) shapeCasts_S1024_S1x1024 := by
  dsimp only [V, V0, hostOps0]
  simp only [List.flatten_cons, List.flatten_nil, List.append_nil]
  after_results
  rfl

/-- Its one row is the bias vector. -/
theorem V_bout (e' : Fin 1024) :
    (V m c main_v25 : S1x1024.Idx → EReal) (ix2 (0 : Fin 1) e')
      = (m ((c : Thread nD τ).loc main_arg4) : S1024.Idx → EReal) (ix1 e') :=
  (congrFun (V_bout_eq m c) (ix2 (0 : Fin 1) e')).trans (row_of_vector_apply _ e')

/-- The output weights only change format, which is the identity on extended reals. -/
theorem V_wout_eq :
    (V m c main_v24 : S1024x1024.Idx → EReal)
      = (truncf .bf16 (m ((c : Thread nD τ).loc main_arg3) : FVec Ideal S1024x1024 .f32) bitsLt_bf16_f32
          : FVec Ideal S1024x1024 .bf16) := by
  dsimp only [V, V0, hostOps0]
  simp only [List.flatten_cons, List.flatten_nil, List.append_nil]
  after_results

theorem V_wout (a b : Fin 1024) :
    (V m c main_v24 : S1024x1024.Idx → EReal) (ix2 a b)
      = (m ((c : Thread nD τ).loc main_arg3) : S1024x1024.Idx → EReal) (ix2 a b) :=
  (congrFun (V_wout_eq m c) (ix2 a b)).trans rfl

/-! ## Reading the permutation's pieces at an index

The statements here are over variables of the literal array types, so that they can be used on any contents. -/

section Pieces
variable {α : Type}

/-- Part `off` of a fused bias vector `b`: its [16,3,64] view sliced at position `off` of the part axis and
    flattened to the 16·64 lanes of that part. -/
abbrev biasPart (b : S3072.Idx → α) (off : Nat) (hs : S16x3x64.Slices ![0, off, 0] S16x1x64) : S1024.Idx → α :=
  shapeCast S1024 (shapeCast S16x64 (extractStridedSlice S16x1x64 ![0, off, 0]
    (shapeCast S16x3x64 b shapeCasts_S3072_S16x3x64) hs) shapeCasts_S16x1x64_S16x64) shapeCasts_S16x64_S1024

/-- Lane `h·64 + e` of part `off` is entry `h·192 + off·64 + e` of the fused vector. -/
theorem biasPart_apply (b : S3072.Idx → α) (off : Nat) (hoff : off < 3) (hs : S16x3x64.Slices ![0, off, 0] S16x1x64)
    (h : Fin 16) (e : Fin 64) (i : Fin 3072) (hi : i.val = h.val * 192 + off * 64 + e.val) :
    biasPart b off hs (ix1 (featOf h e)) = b (ix1 i) := by
  refine (shapeCast_apply _ shapeCasts_S16x64_S1024 (ix1 (featOf h e)) (ix2 h e) ?_).trans ?_
  · rw [Shape.rowMajor_val_two, Shape.rowMajor_val_one]
    show h.val * 64 + e.val = h.val * 64 + e.val
    rfl
  refine (shapeCast_apply _ shapeCasts_S16x1x64_S16x64 (ix2 h e) (ix3 h (0 : Fin 1) e) ?_).trans ?_
  · rw [Shape.rowMajor_val_three, Shape.rowMajor_val_two]
    show (h.val * 1 + 0) * 64 + e.val = h.val * 64 + e.val
    omega
  refine (extractStridedSlice_apply ![0, off, 0] _ hs (ix3 h (0 : Fin 1) e) (ix3 h (⟨off, hoff⟩ : Fin 3) e)
    (fun a => match a with
      | ⟨0, _⟩ => by show h.val = 0 + h.val; omega
      | ⟨1, _⟩ => by show off = off + 0; omega
      | ⟨2, _⟩ => by show e.val = 0 + e.val; omega)).trans ?_
  refine shapeCast_apply b shapeCasts_S3072_S16x3x64 (ix3 h (⟨off, hoff⟩ : Fin 3) e) (ix1 i) ?_
  rw [Shape.rowMajor_val_one, Shape.rowMajor_val_three]
  show i.val = (h.val * 3 + off) * 64 + e.val
  omega

/-- Part `off` of a fused weight matrix `w`: its [1024,16,3,64] view sliced at position `off` of the part axis, the
    16·64 lanes of that part as the columns. -/
abbrev weightPart (w : S1024x3072.Idx → α) (off : Nat) (hs : S1024x16x3x64.Slices ![0, 0, off, 0] S1024x16x1x64) :
    S1024x1024.Idx → α :=
  shapeCast S1024x1024 (shapeCast S1024x16x64 (extractStridedSlice S1024x16x1x64 ![0, 0, off, 0]
    (shapeCast S1024x16x3x64 w shapeCasts_S1024x3072_S1024x16x3x64) hs) shapeCasts_S1024x16x1x64_S1024x16x64)
    shapeCasts_S1024x16x64_S1024x1024

/-- Column `h·64 + e` of part `off` is column `h·192 + off·64 + e` of the fused matrix, row by row. -/
theorem weightPart_apply (w : S1024x3072.Idx → α) (off : Nat) (hoff : off < 3)
    (hs : S1024x16x3x64.Slices ![0, 0, off, 0] S1024x16x1x64) (d : Fin 1024) (h : Fin 16) (e : Fin 64)
    (i : Fin 3072) (hi : i.val = h.val * 192 + off * 64 + e.val) :
    weightPart w off hs (ix2 d (featOf h e)) = w (ix2 d i) := by
  refine (shapeCast_apply _ shapeCasts_S1024x16x64_S1024x1024 (ix2 d (featOf h e)) (ix3 d h e) ?_).trans ?_
  · rw [Shape.rowMajor_val_three, Shape.rowMajor_val_two]
    show (d.val * 16 + h.val) * 64 + e.val = d.val * 1024 + (h.val * 64 + e.val)
    omega
  refine (shapeCast_apply _ shapeCasts_S1024x16x1x64_S1024x16x64 (ix3 d h e) (ix4 d h (0 : Fin 1) e) ?_).trans ?_
  · rw [Shape.rowMajor_val_four, Shape.rowMajor_val_three]
    show ((d.val * 16 + h.val) * 1 + 0) * 64 + e.val = (d.val * 16 + h.val) * 64 + e.val
    omega
  refine (extractStridedSlice_apply ![0, 0, off, 0] _ hs (ix4 d h (0 : Fin 1) e) (ix4 d h (⟨off, hoff⟩ : Fin 3) e)
    (fun a => match a with
      | ⟨0, _⟩ => by show d.val = 0 + d.val; omega
      | ⟨1, _⟩ => by show h.val = 0 + h.val; omega
      | ⟨2, _⟩ => by show off = off + 0; omega
      | ⟨3, _⟩ => by show e.val = 0 + e.val; omega)).trans ?_
  refine shapeCast_apply w shapeCasts_S1024x3072_S1024x16x3x64 (ix4 d h (⟨off, hoff⟩ : Fin 3) e) (ix2 d i) ?_
  rw [Shape.rowMajor_val_two, Shape.rowMajor_val_four]
  show d.val * 3072 + i.val = ((d.val * 16 + h.val) * 3 + off) * 64 + e.val
  omega

/-- Three vectors of 1024 entries laid end to end: entry `k·1024 + q` is entry `q` of vector `k`. -/
theorem concat_vec_apply (p0 p1 p2 : S1024.Idx → α) (i : Fin 3072) (q : Fin 1024) :
    (i.val = q.val → concatenate S3072 0 [⟨S1024, p0⟩, ⟨S1024, p1⟩, ⟨S1024, p2⟩]
        concatenates_S1024_S1024_S1024_S3072_d0 (ix1 i) = p0 (ix1 q))
    ∧ (i.val = 1024 + q.val → concatenate S3072 0 [⟨S1024, p0⟩, ⟨S1024, p1⟩, ⟨S1024, p2⟩]
        concatenates_S1024_S1024_S1024_S3072_d0 (ix1 i) = p1 (ix1 q))
    ∧ (i.val = 2048 + q.val → concatenate S3072 0 [⟨S1024, p0⟩, ⟨S1024, p1⟩, ⟨S1024, p2⟩]
        concatenates_S1024_S1024_S1024_S3072_d0 (ix1 i) = p2 (ix1 q)) := by
  refine ⟨fun hi => ?_, fun hi => ?_, fun hi => ?_⟩
  · exact concatenate_apply_piece (0 : Fin S3072.rank)
      ([⟨S1024, p0⟩, ⟨S1024, p1⟩, ⟨S1024, p2⟩] : List ((s : Shape) × (s.Idx → α)))
      concatenates_S1024_S1024_S1024_S3072_d0 (ix1 i) 0 (by show (0 : Nat) < 3; omega)
      S1024 p0 rfl rfl 0 rfl (ix1 q) (fun b hb => absurd (Subsingleton.elim _ _) hb)
      (by show 0 + q.val = i.val; omega)
  · exact concatenate_apply_piece (0 : Fin S3072.rank)
      ([⟨S1024, p0⟩, ⟨S1024, p1⟩, ⟨S1024, p2⟩] : List ((s : Shape) × (s.Idx → α)))
      concatenates_S1024_S1024_S1024_S3072_d0 (ix1 i) 1 (by show (1 : Nat) < 3; omega)
      S1024 p1 rfl rfl 1024 rfl (ix1 q) (fun b hb => absurd (Subsingleton.elim _ _) hb)
      (by show 1024 + q.val = i.val; omega)
  · exact concatenate_apply_piece (0 : Fin S3072.rank)
      ([⟨S1024, p0⟩, ⟨S1024, p1⟩, ⟨S1024, p2⟩] : List ((s : Shape) × (s.Idx → α)))
      concatenates_S1024_S1024_S1024_S3072_d0 (ix1 i) 2 (by show (2 : Nat) < 3; omega)
      S1024 p2 rfl rfl 2048 rfl (ix1 q) (fun b hb => absurd (Subsingleton.elim _ _) hb)
      (by show 2048 + q.val = i.val; omega)

/-- Three matrices of 1024 columns laid side by side: column `k·1024 + q` is column `q` of matrix `k`, row by row. -/
theorem concat_cols_apply (p0 p1 p2 : S1024x1024.Idx → α) (d : Fin 1024) (i : Fin 3072) (q : Fin 1024) :
    (i.val = q.val → concatenate S1024x3072 1 [⟨S1024x1024, p0⟩, ⟨S1024x1024, p1⟩, ⟨S1024x1024, p2⟩]
        concatenates_S1024x1024_S1024x1024_S1024x1024_S1024x3072_d1 (ix2 d i) = p0 (ix2 d q))
    ∧ (i.val = 1024 + q.val → concatenate S1024x3072 1 [⟨S1024x1024, p0⟩, ⟨S1024x1024, p1⟩, ⟨S1024x1024, p2⟩]
        concatenates_S1024x1024_S1024x1024_S1024x1024_S1024x3072_d1 (ix2 d i) = p1 (ix2 d q))
    ∧ (i.val = 2048 + q.val → concatenate S1024x3072 1 [⟨S1024x1024, p0⟩, ⟨S1024x1024, p1⟩, ⟨S1024x1024, p2⟩]
        concatenates_S1024x1024_S1024x1024_S1024x1024_S1024x3072_d1 (ix2 d i) = p2 (ix2 d q)) := by
  have hrow : ∀ b : Fin S1024x1024.rank, b.cast (rfl : S1024x1024.rank = S1024x3072.rank) ≠ (1 : Fin S1024x3072.rank) →
      ((ix2 d q) b).val = ((ix2 d i) (b.cast (rfl : S1024x1024.rank = S1024x3072.rank))).val := fun b hb =>
    match b, hb with
    | ⟨0, _⟩, _ => rfl
    | ⟨1, _⟩, hb => absurd (Fin.ext rfl) hb
  refine ⟨fun hi => ?_, fun hi => ?_, fun hi => ?_⟩
  · exact concatenate_apply_piece (1 : Fin S1024x3072.rank)
      ([⟨S1024x1024, p0⟩, ⟨S1024x1024, p1⟩, ⟨S1024x1024, p2⟩] : List ((s : Shape) × (s.Idx → α)))
      concatenates_S1024x1024_S1024x1024_S1024x1024_S1024x3072_d1 (ix2 d i) 0 (by show (0 : Nat) < 3; omega)
      S1024x1024 p0 rfl rfl 0 rfl (ix2 d q) hrow (by show 0 + q.val = i.val; omega)
  · exact concatenate_apply_piece (1 : Fin S1024x3072.rank)
      ([⟨S1024x1024, p0⟩, ⟨S1024x1024, p1⟩, ⟨S1024x1024, p2⟩] : List ((s : Shape) × (s.Idx → α)))
      concatenates_S1024x1024_S1024x1024_S1024x1024_S1024x3072_d1 (ix2 d i) 1 (by show (1 : Nat) < 3; omega)
      S1024x1024 p1 rfl rfl 1024 rfl (ix2 d q) hrow (by show 1024 + q.val = i.val; omega)
  · exact concatenate_apply_piece (1 : Fin S1024x3072.rank)
      ([⟨S1024x1024, p0⟩, ⟨S1024x1024, p1⟩, ⟨S1024x1024, p2⟩] : List ((s : Shape) × (s.Idx → α)))
      concatenates_S1024x1024_S1024x1024_S1024x1024_S1024x3072_d1 (ix2 d i) 2 (by show (2 : Nat) < 3; omega)
      S1024x1024 p2 rfl rfl 2048 rfl (ix2 d q) hrow (by show 2048 + q.val = i.val; omega)

/-- A list of three arrays changes only through its entries. -/
theorem concat3_congr {t : Shape} (a : Fin t.rank) {s0 s1 s2 : Shape}
    {x0 x0' : s0.Idx → α} {x1 x1' : s1.Idx → α} {x2 x2' : s2.Idx → α}
    (h0 : x0 = x0') (h1 : x1 = x1') (h2 : x2 = x2') (h : Shape.Concatenates [s0, s1, s2] t a) :
    concatenate t a [⟨s0, x0⟩, ⟨s1, x1⟩, ⟨s2, x2⟩] h = concatenate t a [⟨s0, x0'⟩, ⟨s1, x1'⟩, ⟨s2, x2'⟩] h := by
  subst h0 h1 h2; rfl

end Pieces

/-! ## The two permuted arrays

A line of operations run one after the other is its first stretch, then the rest. Cutting the line just before the
concatenation, the three pieces are read off the first stretch, whose contents are then kept as one unknown: the
rest of the line only concatenates three of its buffers and passes the result on. -/

theorem after_append {Val : EltTy → Type} (l₁ l₂ : List (HloOp τ sig Val)) (W : Valuation τ sig Val) :
    after (l₁ ++ l₂) W = after l₂ (after l₁ W) := by
  induction l₁ generalizing W with
  | nil => rfl
  | cons op l ih => simp only [List.cons_append, after_cons, ih]

/-- The re-laid bias as a term of the argument: the three parts end to end, as one row. -/
theorem V_bqkv_eq :
    (V m c main_v23 : S1x3072.Idx → EReal)
      = shapeCast S1x3072
          (concatenate S3072 0
            [⟨S1024, biasPart (m ((c : Thread nD τ).loc main_arg2) : S3072.Idx → EReal) 0 slices_S16x3x64_S16x1x64_0_0_0⟩,
             ⟨S1024, biasPart (m ((c : Thread nD τ).loc main_arg2) : S3072.Idx → EReal) 1 slices_S16x3x64_S16x1x64_0_1_0⟩,
             ⟨S1024, biasPart (m ((c : Thread nD τ).loc main_arg2) : S3072.Idx → EReal) 2 slices_S16x3x64_S16x1x64_0_2_0⟩]
            concatenates_S1024_S1024_S1024_S3072_d0)
          shapeCasts_S3072_S1x3072 := by
  show after hostOps0 (fun b => m (c, b)) (Proc.devRef .tc main_v23) = _
  rw [← List.take_append_drop 22 (hostOps0 : List (HloOp τ sig (Elt Ideal))), after_append]
  have h15 : after ((hostOps0 : List (HloOp τ sig (Elt Ideal))).take 22) (fun b => m (c, b)) (Proc.devRef .tc main_v15)
      = biasPart (m ((c : Thread nD τ).loc main_arg2) : S3072.Idx → EReal) 0 slices_S16x3x64_S16x1x64_0_0_0 := by
    simp only [hostOps0, List.take_succ_cons, List.take_zero]
    after_results
    rfl
  have h18 : after ((hostOps0 : List (HloOp τ sig (Elt Ideal))).take 22) (fun b => m (c, b)) (Proc.devRef .tc main_v18)
      = biasPart (m ((c : Thread nD τ).loc main_arg2) : S3072.Idx → EReal) 1 slices_S16x3x64_S16x1x64_0_1_0 := by
    simp only [hostOps0, List.take_succ_cons, List.take_zero]
    after_results
    rfl
  have h21 : after ((hostOps0 : List (HloOp τ sig (Elt Ideal))).take 22) (fun b => m (c, b)) (Proc.devRef .tc main_v21)
      = biasPart (m ((c : Thread nD τ).loc main_arg2) : S3072.Idx → EReal) 2 slices_S16x3x64_S16x1x64_0_2_0 := by
    simp only [hostOps0, List.take_succ_cons, List.take_zero]
    after_results
    rfl
  generalize after ((hostOps0 : List (HloOp τ sig (Elt Ideal))).take 22) (fun b => m (c, b)) = W at h15 h18 h21 ⊢
  simp only [hostOps0, List.drop_succ_cons, List.drop_zero]
  after_results
  exact congrArg (fun q => shapeCast S1x3072 q shapeCasts_S3072_S1x3072)
    (concat3_congr (t := S3072) 0 h15 h18 h21 concatenates_S1024_S1024_S1024_S3072_d0)

/-- Entry `j·1024 + h·64 + e` of the re-laid bias is entry `h·192 + j·64 + e` of the argument. -/
theorem V_bqkv (h : Fin 16) (j : Fin 3) (e : Fin 64) :
    (V m c main_v23 : S1x3072.Idx → EReal) (ix2 (0 : Fin 1) (partMajor h j e))
      = (m ((c : Thread nD τ).loc main_arg2) : S3072.Idx → EReal) (ix1 (headMajor h j e)) := by
  refine (congrFun (V_bqkv_eq m c) _).trans ?_
  refine (shapeCast_apply _ shapeCasts_S3072_S1x3072 (ix2 (0 : Fin 1) (partMajor h j e)) (ix1 (partMajor h j e)) ?_).trans ?_
  · rw [Shape.rowMajor_val_one, Shape.rowMajor_val_two]
    show (partMajor h j e).val = 0 * 3072 + (partMajor h j e).val
    omega
  match j with
  | ⟨0, hj⟩ =>
    refine ((concat_vec_apply _ _ _ (partMajor h ⟨0, hj⟩ e) (featOf h e)).1 ?_).trans
      (biasPart_apply _ 0 (by omega) _ h e (headMajor h ⟨0, hj⟩ e) ?_)
    · show 0 * 1024 + h.val * 64 + e.val = h.val * 64 + e.val; omega
    · show h.val * 192 + 0 * 64 + e.val = h.val * 192 + 0 * 64 + e.val; rfl
  | ⟨1, hj⟩ =>
    refine ((concat_vec_apply _ _ _ (partMajor h ⟨1, hj⟩ e) (featOf h e)).2.1 ?_).trans
      (biasPart_apply _ 1 (by omega) _ h e (headMajor h ⟨1, hj⟩ e) ?_)
    · show 1 * 1024 + h.val * 64 + e.val = 1024 + (h.val * 64 + e.val); omega
    · show h.val * 192 + 1 * 64 + e.val = h.val * 192 + 1 * 64 + e.val; rfl
  | ⟨2, hj⟩ =>
    refine ((concat_vec_apply _ _ _ (partMajor h ⟨2, hj⟩ e) (featOf h e)).2.2 ?_).trans
      (biasPart_apply _ 2 (by omega) _ h e (headMajor h ⟨2, hj⟩ e) ?_)
    · show 2 * 1024 + h.val * 64 + e.val = 2048 + (h.val * 64 + e.val); omega
    · show h.val * 192 + 2 * 64 + e.val = h.val * 192 + 2 * 64 + e.val; rfl

/-- The re-laid weights as a term of the argument: the three parts side by side, then the format change. -/
theorem V_wqkv_eq :
    (V m c main_v11 : S1024x3072.Idx → EReal)
      = (truncf .bf16
          (concatenate S1024x3072 1
            [⟨S1024x1024, weightPart (m ((c : Thread nD τ).loc main_arg1) : S1024x3072.Idx → EReal) 0 slices_S1024x16x3x64_S1024x16x1x64_0_0_0_0⟩,
             ⟨S1024x1024, weightPart (m ((c : Thread nD τ).loc main_arg1) : S1024x3072.Idx → EReal) 1 slices_S1024x16x3x64_S1024x16x1x64_0_0_1_0⟩,
             ⟨S1024x1024, weightPart (m ((c : Thread nD τ).loc main_arg1) : S1024x3072.Idx → EReal) 2 slices_S1024x16x3x64_S1024x16x1x64_0_0_2_0⟩]
            concatenates_S1024x1024_S1024x1024_S1024x1024_S1024x3072_d1 : FVec Ideal S1024x3072 .f32)
          bitsLt_bf16_f32 : FVec Ideal S1024x3072 .bf16) := by
  show after hostOps0 (fun b => m (c, b)) (Proc.devRef .tc main_v11) = _
  rw [← List.take_append_drop 10 (hostOps0 : List (HloOp τ sig (Elt Ideal))), after_append]
  have h3 : after ((hostOps0 : List (HloOp τ sig (Elt Ideal))).take 10) (fun b => m (c, b)) (Proc.devRef .tc main_v3)
      = weightPart (m ((c : Thread nD τ).loc main_arg1) : S1024x3072.Idx → EReal) 0 slices_S1024x16x3x64_S1024x16x1x64_0_0_0_0 := by
    simp only [hostOps0, List.take_succ_cons, List.take_zero]
    after_results
    rfl
  have h6 : after ((hostOps0 : List (HloOp τ sig (Elt Ideal))).take 10) (fun b => m (c, b)) (Proc.devRef .tc main_v6)
      = weightPart (m ((c : Thread nD τ).loc main_arg1) : S1024x3072.Idx → EReal) 1 slices_S1024x16x3x64_S1024x16x1x64_0_0_1_0 := by
    simp only [hostOps0, List.take_succ_cons, List.take_zero]
    after_results
    rfl
  have h9 : after ((hostOps0 : List (HloOp τ sig (Elt Ideal))).take 10) (fun b => m (c, b)) (Proc.devRef .tc main_v9)
      = weightPart (m ((c : Thread nD τ).loc main_arg1) : S1024x3072.Idx → EReal) 2 slices_S1024x16x3x64_S1024x16x1x64_0_0_2_0 := by
    simp only [hostOps0, List.take_succ_cons, List.take_zero]
    after_results
    rfl
  generalize after ((hostOps0 : List (HloOp τ sig (Elt Ideal))).take 10) (fun b => m (c, b)) = W at h3 h6 h9 ⊢
  simp only [hostOps0, List.drop_succ_cons, List.drop_zero]
  after_results
  exact congrArg (fun q : FVec Ideal S1024x3072 .f32 => (truncf .bf16 q bitsLt_bf16_f32 : FVec Ideal S1024x3072 .bf16))
    (concat3_congr (t := S1024x3072) 1 h3 h6 h9 concatenates_S1024x1024_S1024x1024_S1024x1024_S1024x3072_d1)

/-- Column `j·1024 + h·64 + e` of the re-laid weights is column `h·192 + j·64 + e` of the argument, row by row. -/
theorem V_wqkv (d : Fin 1024) (h : Fin 16) (j : Fin 3) (e : Fin 64) :
    (V m c main_v11 : S1024x3072.Idx → EReal) (ix2 d (partMajor h j e))
      = (m ((c : Thread nD τ).loc main_arg1) : S1024x3072.Idx → EReal) (ix2 d (headMajor h j e)) := by
  refine (congrFun (V_wqkv_eq m c) _).trans ?_
  refine (truncf_apply _ bitsLt_bf16_f32 (ix2 d (partMajor h j e))).trans ?_
  match j with
  | ⟨0, hj⟩ =>
    refine ((concat_cols_apply _ _ _ d (partMajor h ⟨0, hj⟩ e) (featOf h e)).1 ?_).trans
      (weightPart_apply _ 0 (by omega) _ d h e (headMajor h ⟨0, hj⟩ e) ?_)
    · show 0 * 1024 + h.val * 64 + e.val = h.val * 64 + e.val; omega
    · show h.val * 192 + 0 * 64 + e.val = h.val * 192 + 0 * 64 + e.val; rfl
  | ⟨1, hj⟩ =>
    refine ((concat_cols_apply _ _ _ d (partMajor h ⟨1, hj⟩ e) (featOf h e)).2.1 ?_).trans
      (weightPart_apply _ 1 (by omega) _ d h e (headMajor h ⟨1, hj⟩ e) ?_)
    · show 1 * 1024 + h.val * 64 + e.val = 1024 + (h.val * 64 + e.val); omega
    · show h.val * 192 + 1 * 64 + e.val = h.val * 192 + 1 * 64 + e.val; rfl
  | ⟨2, hj⟩ =>
    refine ((concat_cols_apply _ _ _ d (partMajor h ⟨2, hj⟩ e) (featOf h e)).2.2 ?_).trans
      (weightPart_apply _ 2 (by omega) _ d h e (headMajor h ⟨2, hj⟩ e) ?_)
    · show 2 * 1024 + h.val * 64 + e.val = 2048 + (h.val * 64 + e.val); omega
    · show h.val * 192 + 2 * 64 + e.val = h.val * 192 + 2 * 64 + e.val; rfl

end Cert.KernelIdeal.Hand

end
-- ==== Proof.KernelValue.lean ====
/-
  What the kernel's program computes, at the ideal values, as ONE function of its arguments.

  Point `t` of the grid writes back the block of rows `256·t … 256·t + 255` of the region's [16384, 1024] result.  Its
  body's value at row `p`, column `e'` of the block is the row function of Spec.lean applied to token `p` of the
  point's token block, with the weights read part-major (KernelRow.lean); the token block's row `p` is row
  `256·t + p` of the flattened token array, the four weight windows are the whole re-laid arrays at every point,
  and the host's re-laying read at an index turns part-major reads of the re-laid arrays into head-major reads of
  the arguments (EntryReads.lean).  So every block written back is a block of one function `rowsG` of the
  arguments — row `r` is the row function of token `r` — and, the 64 blocks covering the array, the region's
  result IS `rowsG`.  The reshape after the region regroups row `b·8192 + s` as token (b, s): the program's result
  is `resultG`, at (b, s, e') the row function of token (b, s) at e'.
-/
import proofs.«175739_j64132451663943_2_alg».proof.Proof.FrameIdeal
import proofs.«175739_j64132451663943_2_alg».proof.Proof.Spec
import proofs.«175739_j64132451663943_2_alg».proof.Proof.KernelRow
import proofs.«175739_j64132451663943_2_alg».proof.Proof.EntryReads
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Cert.Mhsa
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-- Token `r` of the flattened token array, as a row. -/
def tokRow (r : Fin 16384) : Fin 1024 → EReal := fun d =>
  (m ((c : Thread nD τ).loc main_arg0) : S2x8192x1024.Idx → EReal) (ix3 (⟨r.val / 8192, by omega⟩ : Fin 2) (⟨r.val % 8192, Nat.mod_lt _ (by decide)⟩ : Fin 8192) d)

/-- The projection weights, biases, output weights and output bias as the arguments hold them (head-major). -/
def wqA : Fin 16 → Fin 3 → Fin 64 → Fin 1024 → EReal := fun h j e d =>
  (m ((c : Thread nD τ).loc main_arg1) : S1024x3072.Idx → EReal) (ix2 d (headMajor h j e))
def bqA : Fin 16 → Fin 3 → Fin 64 → EReal := fun h j e =>
  (m ((c : Thread nD τ).loc main_arg2) : S3072.Idx → EReal) (ix1 (headMajor h j e))
def woA : Fin 1024 → Fin 1024 → EReal := fun a b =>
  (m ((c : Thread nD τ).loc main_arg3) : S1024x1024.Idx → EReal) (ix2 a b)
def boA : Fin 1024 → EReal := fun b =>
  (m ((c : Thread nD τ).loc main_arg4) : S1024.Idx → EReal) (ix1 b)

/-- The region's result array as ONE function of the arguments: row `r` is the row function of token `r`. -/
def rowsG : S16384x1024.Idx → EReal := fun i =>
  rowOut (wqA m c) (bqA m c) (woA m c) (boA m c) (tokRow m c ⟨(i 0).val, idx2_lt0 i⟩) ⟨(i 1).val, idx2_lt1 i⟩

theorem hz : (![0, 0] : Fin 2 → Nat) = fun _ => 0 := funext fun a => by fin_cases a <;> rfl

/-- The index maps, decided over the grid: the token window and the output window sit at block row `t`, the four
    weight windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The four weight windows sit at block (0, 0) at every point: a block element is the array's element. -/
theorem blkW (t : Fin cfg0.N) (d : Fin 1024) (k : Fin 3072) :
    iblk m c 1 t (ix2 d k) = (V m c main_v11 : S1024x3072.Idx → EReal) (ix2 d k) := by
  obtain ⟨-, -, e0, e1, -⟩ := idx_facts t
  show (V m c main_v11 : S1024x3072.Idx → EReal) (((cfg0.win 1).blk t).view.emb (ix2 d k)) = _
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * k.val = k.val; omega
theorem blkB (t : Fin cfg0.N) (k : Fin 3072) :
    iblk m c 2 t (ix2 (0 : Fin 1) k) = (V m c main_v23 : S1x3072.Idx → EReal) (ix2 (0 : Fin 1) k) := by
  obtain ⟨-, -, -, -, e0, e1, -⟩ := idx_facts t
  show (V m c main_v23 : S1x3072.Idx → EReal) (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * k.val = k.val; omega
theorem blkWo (t : Fin cfg0.N) (a b : Fin 1024) :
    iblk m c 3 t (ix2 a b) = (V m c main_v24 : S1024x1024.Idx → EReal) (ix2 a b) := by
  obtain ⟨-, -, -, -, -, -, e0, e1, -⟩ := idx_facts t
  show (V m c main_v24 : S1024x1024.Idx → EReal) (((cfg0.win 3).blk t).view.emb (ix2 a b)) = _
  refine congrArg _ (funext fun x => Fin.ext ?_)
  match x with
  | ⟨0, _⟩ => show win0_3.index t (0 : Fin 2) * 1024 + 1 * a.val = a.val; omega
  | ⟨1, _⟩ => show win0_3.index t (1 : Fin 2) * 1024 + 1 * b.val = b.val; omega
theorem blkBo (t : Fin cfg0.N) (k : Fin 1024) :
    iblk m c 4 t (ix2 (0 : Fin 1) k) = (V m c main_v25 : S1x1024.Idx → EReal) (ix2 (0 : Fin 1) k) := by
  obtain ⟨-, -, -, -, -, -, -, -, e0, e1, -⟩ := idx_facts t
  show (V m c main_v25 : S1x1024.Idx → EReal) (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * k.val = k.val; omega
/-- The token window sits at block row `t`: its row `p` is row `256·t + p` of the token array. -/
theorem blkX (t : Fin cfg0.N) (p : Fin 256) (d : Fin 1024) (r : Fin 16384) (hr : r.val = t.val * 256 + p.val) :
    iblk m c 0 t (ix2 p d) = (V m c main_v26 : S16384x1024.Idx → EReal) (ix2 r d) := by
  obtain ⟨e0, e1, -⟩ := idx_facts t
  show (V m c main_v26 : S16384x1024.Idx → EReal) (((cfg0.win 0).blk t).view.emb (ix2 p d)) = _
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * d.val = d.val; omega

theorem flushed_eq (t : Fin cfg0.N) :
    (dats m 0 c).flushed 5 t = ((cfg0.win 5).blk t).view.read (Elt Ideal) (rowsG m c) := by
  show (cfg0.win 5).cut (grid0.coords t) ((dats m 0 c).after 5 t) = _
  rw [after0_5]
  unfold outBlock
  rw [View.canon_unit_zero hz]
  simp only [View.ld_unit_zero (S := S256x1024) hz, View.ld_unit_zero (S := S1024x3072) hz, View.ld_unit_zero (S := S1x3072) hz,
    View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  have ht : t.val < 64 := lt_of_lt_of_eq t.isLt N_0
  obtain ⟨-, -, -, -, -, -, -, -, -, -, o0, o1⟩ := idx_facts t
  show k0_pay1 (iblk m c 0 t) (iblk m c 1 t) (iblk m c 2 t) (iblk m c 3 t) (iblk m c 4 t) (ix2 p q)
    = rowsG m c (((cfg0.win 5).blk t).view.emb (ix2 p q))
  refine (pay_row _ _ _ _ _ p q).trans ?_
  have e1 : (fun h j e d => iblk m c 1 t (ix2 d (partMajor h j e))) = wqA m c := by
    funext h j e d; rw [blkW, V_wqkv]; rfl
  have e2 : (fun h j e => iblk m c 2 t (ix2 (0 : Fin 1) (partMajor h j e))) = bqA m c := by
    funext h j e; rw [blkB, V_bqkv]; rfl
  have e3 : (fun a b => iblk m c 3 t (ix2 a b)) = woA m c := by
    funext a b; rw [blkWo, V_wout]; rfl
  have e4 : (fun b => iblk m c 4 t (ix2 (0 : Fin 1) b)) = boA m c := by
    funext b; rw [blkBo, V_bout]; rfl
  have e0 : (fun d => iblk m c 0 t (ix2 p d)) = tokRow m c ⟨t.val * 256 + p.val, by omega⟩ := by
    funext d; rw [blkX m c t p d ⟨t.val * 256 + p.val, by omega⟩ rfl, V_tokens]; rfl
  rw [e0, e1, e2, e3, e4]
  unfold rowsG
  have r0 : (⟨(((cfg0.win 5).blk t).view.emb (ix2 p q) 0).val, idx2_lt0 _⟩ : Fin 16384) = ⟨t.val * 256 + p.val, by omega⟩ :=
    Fin.ext (by show win0_5.index t (0 : Fin 2) * 256 + 1 * p.val = t.val * 256 + p.val; omega)
  have r1 : (⟨(((cfg0.win 5).blk t).view.emb (ix2 p q) 1).val, idx2_lt1 _⟩ : Fin 1024) = q :=
    Fin.ext (by show win0_5.index t (1 : Fin 2) * 1024 + 1 * q.val = q.val; omega)
  rw [r0, r1]

/-- An index of the result array is in point `t`'s block iff its row is among the 256 rows the point owns. -/
theorem mem_blk (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v27).slice (win0_5.rect t)).set ↔ _
  rw [View.set_slice_whole, Rect.mem_set_unit]
  exact Iff.rfl

/-- Row `r` is written back by point `r / 256`: the 64 blocks cover the array. -/
theorem cover (i : S16384x1024.Idx) : ∃ t : Fin cfg0.N, (cfg0.win 5).flush t = true ∧ i ∈ ((cfg0.win 5).blk t).view.set := by
  have hi0 : (i 0).val < 16384 := idx2_lt0 i
  have hi1 : (i 1).val < 1024 := idx2_lt1 i
  have hN : (i 0).val / 256 < cfg0.N := lt_of_lt_of_eq (by omega : (i 0).val / 256 < 64) N_0.symm
  obtain ⟨-, -, -, -, -, -, -, -, -, -, o0, o1⟩ := idx_facts ⟨(i 0).val / 256, hN⟩
  refine ⟨⟨(i 0).val / 256, hN⟩, flush0_5 _, ?_⟩
  rw [mem_blk]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    have o0' : win0_5.index ⟨(i 0).val / 256, hN⟩ (0 : Fin 2) = (i 0).val / 256 := o0
    omega
  | ⟨1, _⟩ =>
    show win0_5.index ⟨(i 0).val / 256, hN⟩ (1 : Fin 2) * 1024 ≤ (i 1).val ∧ (i 1).val < win0_5.index ⟨(i 0).val / 256, hN⟩ (1 : Fin 2) * 1024 + 1024
    omega

/-- The region's result array after the run. -/
theorem final : (dats m 0 c).arrAt 5 cfg0.N = rowsG m c :=
  (dats m 0 c).arrAt_eq_of_cover 5 (rowsG m c) (fun t _ => flushed_eq m c t) (cover)

/-- The program's result at token (b, s), feature e'. -/
def resultAt (b : Fin 2) (s : Fin 8192) (e' : Fin 1024) : EReal :=
  rowOut (wqA m c) (bqA m c) (woA m c) (boA m c) (fun d => (m ((c : Thread nD τ).loc main_arg0) : S2x8192x1024.Idx → EReal) (ix3 b s d)) e'
/-- The program's result array. -/
def resultG : S2x8192x1024.Idx → EReal := fun i => resultAt m c ⟨(i 0).val, (i 0).isLt⟩ ⟨(i 1).val, (i 1).isLt⟩ ⟨(i 2).val, (i 2).isLt⟩

theorem tail_eq : Pipeline.afterTail₀ cfgs (dats m) 0 (V0 m) [hostOps1] c main_v28 = resultG m c := by
  unfold Pipeline.afterTail₀
  show StableHlo.after hostOps1 _ (Proc.devRef .tc main_v28) = _
  after_results
  funext i
  obtain ⟨b, s, e, rfl⟩ : ∃ (b : Fin 2) (s : Fin 8192) (e : Fin 1024), i = ix3 b s e := ⟨i 0, i 1, i 2, eq_ix3 i⟩
  have hb2 : b.val < 2 := b.isLt
  have hs2 : s.val < 8192 := s.isLt
  show shapeCast S2x8192x1024 (Pipeline.withArrays spec0 c (V0 m c) (fun w => (dats m 0 c).arrAt w cfg0.N) (Proc.devRef .tc main_v27))
      shapeCasts_S16384x1024_S2x8192x1024 (ix3 b s e) = _
  have hw : Pipeline.withArrays spec0 c (V0 m c) (fun w => (dats m 0 c).arrAt w cfg0.N) (Proc.devRef .tc main_v27) = rowsG m c :=
    (Pipeline.withArrays_arr spec0 launch0.win.arr_inj c _ _ 5).trans (final m c)
  rw [hw]
  refine (shapeCast_apply (rowsG m c) shapeCasts_S16384x1024_S2x8192x1024 (ix3 b s e)
    (ix2 (⟨b.val * 8192 + s.val, by omega⟩ : Fin 16384) e) ?_).trans ?_
  · rw [Shape.rowMajor_val_two, Shape.rowMajor_val_three]
    rfl
  · have hb : (⟨(b.val * 8192 + s.val) / 8192, by omega⟩ : Fin 2) = b := Fin.ext (by show (b.val * 8192 + s.val) / 8192 = b.val; omega)
    have hs : (⟨(b.val * 8192 + s.val) % 8192, Nat.mod_lt _ (by decide)⟩ : Fin 8192) = s := Fin.ext (by show (b.val * 8192 + s.val) % 8192 = s.val; omega)
    show rowOut (wqA m c) (bqA m c) (woA m c) (boA m c) (tokRow m c ⟨b.val * 8192 + s.val, _⟩) e
      = rowOut (wqA m c) (bqA m c) (woA m c) (boA m c) (fun d => (m ((c : Thread nD τ).loc main_arg0) : S2x8192x1024.Idx → EReal) (ix3 b s d)) e
    refine congrArg (fun x => rowOut (wqA m c) (bqA m c) (woA m c) (boA m c) x e) (funext fun d => ?_)
    show (m ((c : Thread nD τ).loc main_arg0) : S2x8192x1024.Idx → EReal) (ix3 (⟨(b.val * 8192 + s.val) / 8192, _⟩ : Fin 2) (⟨(b.val * 8192 + s.val) % 8192, _⟩ : Fin 8192) d) = _
    rw [hb, hs]

/-- The program's run at the ideal values: the result array is `resultG` of the arguments, which end as launched. -/
theorem run_value : θ_run defs (onTc (τ := τ) (main (F := Ideal))) ⟨m, fun _ => 0, ρ⟩ (fun r => ∀ c : Dev nD,
      r.2.mem ((c.tc : Thread nD τ).loc main_v28) = resultG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v28 (Pipeline.mem_restRefs_of main_v28 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Cert.KernelIdeal.Hand

end
-- ==== Proof.RefStages.lean ====
/-
  The reference's program read one operation at a time: each host operation of the reference as a stage of its
  operands, and each stage read at an index.  This module only brings those readings into scope for the modules
  that compare the two programs.
-/
import proofs.«175739_j64132451663943_2_alg».proof.Proof.Gen.ReferenceIdeal.Read
-- ==== Proof.RefRow.lean ====
/-
  The reference program, read for one token.

  The reference computes, for the token at batch `b` and position `s`, the row function of the specification
  applied to that token's 1024 input features, with the fused projection's weights and biases read in the
  head-major layout: column `h·192 + j·64 + e` of the weight array holds lane `e` of part `j` (query, key,
  value) of head `h`.  The lemmas below follow the row function's intermediates bottom up: the projection, the
  scaled scores, the row maximum, the shifted exponentials, their sum, the softmax weights, the context and the
  output projection, each as the corresponding stage of the reference read at explicit coordinates.
-/
import proofs.«175739_j64132451663943_2_alg».proof.Proof.RefStages
import proofs.«175739_j64132451663943_2_alg».proof.Proof.Spec

noncomputable section

namespace Cert.ReferenceIdeal.RefValue

open Cert.ReferenceIdeal Cert.ReferenceIdeal.Read Cert.Mhsa Idealize.ShloMosaic Idealize.ShloMosaic.ValueIdx

/-- The projection weights in the head-major layout: feature `d` to lane `e` of part `j` of head `h`. -/
abbrev wqHM (x1 : (⟨S1024x3072, .f32⟩ : BufTy).Contents (Elt Ideal)) : Fin 16 → Fin 3 → Fin 64 → Fin 1024 → EReal :=
  fun h j e d => x1 (ix2 d (headMajor h j e))
/-- The projection biases in the head-major layout. -/
abbrev bqHM (x2 : (⟨S3072, .f32⟩ : BufTy).Contents (Elt Ideal)) : Fin 16 → Fin 3 → Fin 64 → EReal :=
  fun h j e => x2 (ix1 (headMajor h j e))
/-- The token at batch `b`, position `s`. -/
abbrev tokAt (x0 : (⟨S2x8192x1024, .f32⟩ : BufTy).Contents (Elt Ideal)) (b : Fin 2) (s : Fin 8192) : Fin 1024 → EReal :=
  fun d => x0 (ix3 b s d)

section Stages

variable (x0 : (⟨S2x8192x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal)) (b : Fin 2) (s : Fin 8192)

/-- The fused projection with its bias, at column `c`: the token's features against column `c` of the weights, plus
    the bias at `c`. -/
theorem v3_at (c : Fin 3072) :
    val_main_v3 x0 x1 x2 (ix3 b s c) = (∑ d : Fin 1024, x0 (ix3 b s d) * x1 (ix2 d c)) + x2 (ix1 c) := by
  rw [val_main_v3_apply, val_main_v0_apply, val_main_v2_apply, val_main_v1_apply]
  have el : ∀ k : Fin 1024, lidx_main_v0 (ix3 b s c) k = ix3 b s k := fun k =>
    funext fun a => Fin.ext (by match a with | ⟨0, _⟩ => rfl | ⟨1, _⟩ => rfl | ⟨2, _⟩ => rfl)
  have er : ∀ k : Fin 1024, ridx_main_v0 (ix3 b s c) k = ix2 k c := fun k =>
    funext fun a => Fin.ext (by match a with | ⟨0, _⟩ => rfl | ⟨1, _⟩ => rfl)
  have eb : idx_main_v1 (idx_main_v2 (ix3 b s c)) = ix1 c :=
    funext fun a => Fin.ext (by match a with | ⟨0, _⟩ => rfl)
  simp only [el, er, eb, Ideal.addf_def]

/-- The reshape to heads: column `q` of head `h` is column `h·192 + q` of the fused projection. -/
theorem v4_at (h : Fin 16) (q : Fin 192) :
    val_main_v4 x0 x1 x2 (ix4 b s h q) = val_main_v3 x0 x1 x2 (ix3 b s ⟨h.val * 192 + q.val, by omega⟩) := by
  rw [val_main_v4_apply]
  refine congrArg _ (funext fun a => Fin.ext ?_)
  have hb := b.isLt; have hs := s.isLt; have hh := h.isLt; have hq := q.isLt
  match a with
  | ⟨0, _⟩ => show (((b.val * 8192 + s.val) * 16 + h.val) * 192 + q.val) / 25165824 = b.val; omega
  | ⟨1, _⟩ => show (((b.val * 8192 + s.val) * 16 + h.val) * 192 + q.val) / 3072 % 8192 = s.val; omega
  | ⟨2, _⟩ => show (((b.val * 8192 + s.val) * 16 + h.val) * 192 + q.val) % 3072 = h.val * 192 + q.val; omega

/-- The query part of head `h`: lane `e` is the projection's lane `e` of part 0. -/
theorem v5_at (h : Fin 16) (e : Fin 64) :
    val_main_v5 x0 x1 x2 (ix4 b s h e) = proj (wqHM x1) (bqHM x2) (tokAt x0 b s) h 0 e := by
  rw [val_main_v5_apply]
  have ei : idx_main_v5 (ix4 b s h e) = ix4 b s h (⟨e.val, by omega⟩ : Fin 192) :=
    funext fun a => Fin.ext (by match a with | ⟨0, _⟩ => rfl | ⟨1, _⟩ => rfl | ⟨2, _⟩ => rfl | ⟨3, _⟩ => rfl)
  rw [ei, v4_at, v3_at]
  have ec : (⟨h.val * 192 + (⟨e.val, by omega⟩ : Fin 192).val, by omega⟩ : Fin 3072) = headMajor h 0 e :=
    Fin.ext (by show h.val * 192 + e.val = h.val * 192 + 0 * 64 + e.val; omega)
  rw [ec]; rfl

/-- The key part of head `h`: part 1. -/
theorem v6_at (h : Fin 16) (e : Fin 64) :
    val_main_v6 x0 x1 x2 (ix4 b s h e) = proj (wqHM x1) (bqHM x2) (tokAt x0 b s) h 1 e := by
  rw [val_main_v6_apply]
  have ei : idx_main_v6 (ix4 b s h e) = ix4 b s h (⟨64 + e.val, by omega⟩ : Fin 192) :=
    funext fun a => Fin.ext (by match a with | ⟨0, _⟩ => rfl | ⟨1, _⟩ => rfl | ⟨2, _⟩ => rfl | ⟨3, _⟩ => rfl)
  rw [ei, v4_at, v3_at]
  have ec : (⟨h.val * 192 + (⟨64 + e.val, by omega⟩ : Fin 192).val, by omega⟩ : Fin 3072) = headMajor h 1 e :=
    Fin.ext (by show h.val * 192 + (64 + e.val) = h.val * 192 + 1 * 64 + e.val; omega)
  rw [ec]; rfl

/-- The value part of head `h`: part 2. -/
theorem v7_at (h : Fin 16) (e : Fin 64) :
    val_main_v7 x0 x1 x2 (ix4 b s h e) = proj (wqHM x1) (bqHM x2) (tokAt x0 b s) h 2 e := by
  rw [val_main_v7_apply]
  have ei : idx_main_v7 (ix4 b s h e) = ix4 b s h (⟨128 + e.val, by omega⟩ : Fin 192) :=
    funext fun a => Fin.ext (by match a with | ⟨0, _⟩ => rfl | ⟨1, _⟩ => rfl | ⟨2, _⟩ => rfl | ⟨3, _⟩ => rfl)
  rw [ei, v4_at, v3_at]
  have ec : (⟨h.val * 192 + (⟨128 + e.val, by omega⟩ : Fin 192).val, by omega⟩ : Fin 3072) = headMajor h 2 e :=
    Fin.ext (by show h.val * 192 + (128 + e.val) = h.val * 192 + 2 * 64 + e.val; omega)
  rw [ec]; rfl

/-- The scaled scores: the queries of head `h` against the keys of head `g`, divided by eight. -/
theorem v10_at (h g : Fin 16) :
    val_main_v10 x0 x1 x2 (ix4 b s h g) = score (wqHM x1) (bqHM x2) (tokAt x0 b s) h g := by
  rw [val_main_v10_apply, val_main_v8_apply, val_main_v9_apply, val_main_cst_apply]
  have el : ∀ k : Fin 64, lidx_main_v8 (ix4 b s h g) k = ix4 b s h k := fun k =>
    funext fun a => Fin.ext (by match a with | ⟨0, _⟩ => rfl | ⟨1, _⟩ => rfl | ⟨2, _⟩ => rfl | ⟨3, _⟩ => rfl)
  have er : ∀ k : Fin 64, ridx_main_v8 (ix4 b s h g) k = ix4 b s g k := fun k =>
    funext fun a => Fin.ext (by match a with | ⟨0, _⟩ => rfl | ⟨1, _⟩ => rfl | ⟨2, _⟩ => rfl | ⟨3, _⟩ => rfl)
  simp only [el, er, v5_at, v6_at, Ideal.hostDivf_def, Ideal.ofBits_def]
  exact div_eight _

/-- The row maximum as the reference takes it: the fold of the maximum over the key heads, started at −∞. -/
theorem v11_at (h : Fin 16) :
    val_main_v11 x0 x1 x2 (ix3 b s h) = rowMax (wqHM x1) (bqHM x2) (tokAt x0 b s) h := by
  unfold val_main_v11
  generalize hy : val_main_v10 (F := Ideal) x0 x1 x2 = y
  have hy' : ∀ g : Fin 16, y (ix4 b s h g) = score (wqHM x1) (bqHM x2) (tokAt x0 b s) h g := fun g => by
    rw [← hy]; exact v10_at x0 x1 x2 b s h g
  have hR : S2x8192x16x16.Reduces [3] S2x8192x16 := by decide
  have key := Host.reduce_eq_fold_single (FloatOps.maximumf (F := Ideal) (φ := .f32)) y (val_main_cst_0 (F := Ideal))
    Gen.reducesTo_S2x8192x16x16_S2x8192x16_d3 hR Gen.h_S_ (ix3 b s h)
  refine key.trans ?_
  unfold rowMax
  refine Finset.fold_congr fun g _ => ?_
  refine Eq.trans (congrArg y (funext fun a => Fin.ext ?_)) (hy' g)
  match a with | ⟨0, _⟩ => rfl | ⟨1, _⟩ => rfl | ⟨2, _⟩ => rfl | ⟨3, _⟩ => rfl

/-- Taking the maximum with −∞ once more changes nothing. -/
theorem v13_at (h : Fin 16) :
    val_main_v13 x0 x1 x2 (ix3 b s h) = rowMax (wqHM x1) (bqHM x2) (tokAt x0 b s) h := by
  rw [val_main_v13_apply, val_main_v12_apply, val_main_cst_1_apply, v11_at]
  exact max_fold_self _ _

/-- The shifted exponentials. -/
theorem v17_at (h g : Fin 16) :
    val_main_v17 x0 x1 x2 (ix4 b s h g) = expd (wqHM x1) (bqHM x2) (tokAt x0 b s) h g := by
  rw [val_main_v17_apply, val_main_v16_apply, val_main_v15_apply, val_main_v14_apply, v10_at]
  have ei : idx_main_v14 (idx_main_v15 (ix4 b s h g)) = ix3 b s h :=
    funext fun a => Fin.ext (by match a with | ⟨0, _⟩ => rfl | ⟨1, _⟩ => rfl | ⟨2, _⟩ => rfl)
  rw [ei, v13_at]; rfl

/-- Their sum over the key heads (the sum starts from the zero word). -/
theorem v18_at (h : Fin 16) :
    val_main_v18 x0 x1 x2 (ix3 b s h) = denom (wqHM x1) (bqHM x2) (tokAt x0 b s) h := by
  rw [val_main_v18_apply, val_main_cst_2_apply]
  have ei : ∀ k : Fin 16, idx_main_v18 (ix3 b s h) k = ix4 b s h k := fun k =>
    funext fun a => Fin.ext (by match a with | ⟨0, _⟩ => rfl | ⟨1, _⟩ => rfl | ⟨2, _⟩ => rfl | ⟨3, _⟩ => rfl)
  simp only [ei, v17_at, Ideal.ofBits_def, Ideal.ofBits_zero_f32, zero_add]
  rfl

/-- The softmax weights. -/
theorem v21_at (h g : Fin 16) :
    val_main_v21 x0 x1 x2 (ix4 b s h g) = attn (wqHM x1) (bqHM x2) (tokAt x0 b s) h g := by
  rw [val_main_v21_apply, val_main_v20_apply, val_main_v19_apply, v17_at]
  have ei : idx_main_v19 (idx_main_v20 (ix4 b s h g)) = ix3 b s h :=
    funext fun a => Fin.ext (by match a with | ⟨0, _⟩ => rfl | ⟨1, _⟩ => rfl | ⟨2, _⟩ => rfl)
  rw [ei, v18_at]; rfl

/-- The context: the softmax weights of head `h` against the value parts. -/
theorem v22_at (h : Fin 16) (e : Fin 64) :
    val_main_v22 x0 x1 x2 (ix4 b s h e) = ctx (wqHM x1) (bqHM x2) (tokAt x0 b s) h e := by
  rw [val_main_v22_apply]
  have el : ∀ k : Fin 16, lidx_main_v22 (ix4 b s h e) k = ix4 b s h k := fun k =>
    funext fun a => Fin.ext (by match a with | ⟨0, _⟩ => rfl | ⟨1, _⟩ => rfl | ⟨2, _⟩ => rfl | ⟨3, _⟩ => rfl)
  have er : ∀ k : Fin 16, ridx_main_v22 (ix4 b s h e) k = ix4 b s k e := fun k =>
    funext fun a => Fin.ext (by match a with | ⟨0, _⟩ => rfl | ⟨1, _⟩ => rfl | ⟨2, _⟩ => rfl | ⟨3, _⟩ => rfl)
  simp only [el, er, v21_at, v7_at]
  rfl

/-- The reshape back to features: feature `c` is lane `c % 64` of head `c / 64`. -/
theorem v23_at (c : Fin 1024) :
    val_main_v23 x0 x1 x2 (ix3 b s c) = ctx (wqHM x1) (bqHM x2) (tokAt x0 b s) (headOf c) (laneOf c) := by
  rw [val_main_v23_apply]
  have ei : idx_main_v23 (ix3 b s c) = ix4 b s (headOf c) (laneOf c) := funext fun a => Fin.ext (by
    have hb := b.isLt; have hs := s.isLt; have hc := c.isLt
    match a with
    | ⟨0, _⟩ => show ((b.val * 8192 + s.val) * 1024 + c.val) / 8388608 = b.val; omega
    | ⟨1, _⟩ => show ((b.val * 8192 + s.val) * 1024 + c.val) / 1024 % 8192 = s.val; omega
    | ⟨2, _⟩ => show ((b.val * 8192 + s.val) * 1024 + c.val) / 64 % 16 = c.val / 64; omega
    | ⟨3, _⟩ => show ((b.val * 8192 + s.val) * 1024 + c.val) % 64 = c.val % 64; omega)
  rw [ei, v22_at]

end Stages

/-- The reference's result at (`b`, `s`, `e'`) is the row function of token (`b`, `s`) at `e'`, the projection's
    weights and biases read head-major. -/
theorem ref_row (x0 : (⟨S2x8192x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (b : Fin 2) (s : Fin 8192) (e' : Fin 1024) :
    Read.val_main_v27 x0 x1 x2 x3 x4 (ix3 b s e')
      = rowOut (fun h j e d => x1 (ix2 d (headMajor h j e))) (fun h j e => x2 (ix1 (headMajor h j e)))
          (fun a c => x3 (ix2 a c)) (fun c => x4 (ix1 c)) (fun d => x0 (ix3 b s d)) e' := by
  rw [val_main_v27_apply, val_main_v24_apply, val_main_v26_apply, val_main_v25_apply]
  have el : ∀ k : Fin 1024, lidx_main_v24 (ix3 b s e') k = ix3 b s k := fun k =>
    funext fun a => Fin.ext (by match a with | ⟨0, _⟩ => rfl | ⟨1, _⟩ => rfl | ⟨2, _⟩ => rfl)
  have er : ∀ k : Fin 1024, ridx_main_v24 (ix3 b s e') k = ix2 k e' := fun k =>
    funext fun a => Fin.ext (by match a with | ⟨0, _⟩ => rfl | ⟨1, _⟩ => rfl)
  have eb : idx_main_v25 (idx_main_v26 (ix3 b s e')) = ix1 e' :=
    funext fun a => Fin.ext (by match a with | ⟨0, _⟩ => rfl)
  simp only [el, er, eb, v23_at, Ideal.addf_def]
  rfl

end Cert.ReferenceIdeal.RefValue

end
-- ==== Proof.lean ====
/-
  The five claims of the certificate.

  The kernel fuses multi-head self-attention for 16384 tokens (2 × 8192) of 1024 features: a fused projection to
  16 heads × (query, key, value) × 64 lanes, attention ACROSS THE HEADS of one token (scores of head h's query
  against head g's key, scaled by 1/8, a softmax over g, the weighted sum of the value parts), and an output
  projection.  The reference computes the same with einsums on the whole arrays.

  Frames: each program terminates without a fault and leaves its arguments unchanged — the kernel's two readings
  by the run of its one region (FrameBits.lean, FrameIdeal.lean), the reference's by its run as a sequence of host
  operations.  The idealization rewrote nothing, so `preserves` is trivial.  The algebraic claim: at the ideal
  values both programs end with the same array, at token (b, s) and feature e' the row function of Spec.lean
  applied to that token with the weights read head-major — the kernel's by KernelValue.lean, the reference's by
  RefRow.lean.  The two sides differ only in layout (part-major against head-major columns, 256-token blocks
  against whole arrays), in the scale (a product with 1/8 against a quotient by 8: equal on every extended real)
  and in one maximum with −∞ the reference takes once more; no step needs the inputs finite.
-/
import proofs.«175739_j64132451663943_2_alg».proof.Defs
import proofs.«175739_j64132451663943_2_alg».proof.Proof.Gen.Kernel
import proofs.«175739_j64132451663943_2_alg».proof.Proof.Gen.KernelIdeal
import proofs.«175739_j64132451663943_2_alg».proof.Proof.Gen.ReferenceIdeal
import proofs.«175739_j64132451663943_2_alg».proof.Proof.Gen.Pre_finite_inputs
import proofs.«175739_j64132451663943_2_alg».proof.Proof.Gen.ReferenceIdeal.Run
import proofs.«175739_j64132451663943_2_alg».proof.Proof.FrameBits
import proofs.«175739_j64132451663943_2_alg».proof.Proof.FrameIdeal
import proofs.«175739_j64132451663943_2_alg».proof.Proof.KernelValue
import proofs.«175739_j64132451663943_2_alg».proof.Proof.RefRow
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, both programs end with `resultG` of the arguments. -/
theorem algebraic : Cert.algebraic_KernelIdeal_ReferenceIdeal := by
  intro m ρ m' ρ' _ hagree
  refine ⟨fun c => Cert.KernelIdeal.Hand.resultG m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1, (hagree c).2.2.2.2]
  funext i
  obtain ⟨b, s, e, rfl⟩ : ∃ (b : Fin 2) (s : Fin 8192) (e : Fin 1024), i = ix3 b s e := ⟨i 0, i 1, i 2, eq_ix3 i⟩
  exact Cert.ReferenceIdeal.RefValue.ref_row _ _ _ _ _ b s e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
